-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x600000 : Shape := ⟨2, ![2, 600000]⟩
abbrev S600000 : Shape := ⟨1, ![600000]⟩
abbrev S30000x128 : Shape := ⟨2, ![30000, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S600000 : S_.BroadcastsInDim S600000 (![] : Fin 0 → Fin S600000.rank)
  reducesTo_S600000_S_d0 : S600000.ReducesTo [0] S_
  h_S_ : 0 < S_.numel
  bcast_S_S30000x128 : S_.BroadcastsInDim S30000x128 (![] : Fin 0 → Fin S30000x128.rank)
  reducesTo_S30000x128_S_d0_1 : S30000x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg14 : FVec F S64 .f32) (main_arg15 : FVec F S64x2 .f32) (main_arg16 : FVec F S2 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg14
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x2 .f32 := Host.absf main_arg15
  let main_cst_22 : FVec F S_ .f32 := constant S_ .f32 0x7F800000#32
  let main_v60 : FVec F S64x2 .f32 := broadcastInDim S64x2 ![] bcast_S_S64x2 main_cst_22
  let main_v61 : IVec S64x2 1 := cmpf .olt main_v59 main_v60
  let main_c_23 : IVec S_ 1 := constantI S_ 1 1#1
  let main_v62 : IVec S_ 1 := (fun x v => Host.reduce IntOp.andi x v reducesTo_S64x2_S_d0_1 h_S_) main_v61 main_c_23
  let main_v63 : IVec S_ 1 := andi main_v58 main_v62
  let main_v64 : FVec F S2 .f32 := Host.absf main_arg16
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_v63 main_v67

def fn_part2 {F : FTy → Type} [FloatOps F] (main_arg10 : FVec F S128 .f32) (main_arg11 : FVec F S128x128 .f32) (main_arg12 : FVec F S128 .f32) (main_arg13 : FVec F S128x64 .f32) (main_arg14 : FVec F S64 .f32) (main_arg15 : FVec F S64x2 .f32) (main_arg16 : FVec F S2 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg13
  let main_cst_18 : FVec F S_ .f32 := constant S_ .f32 0x7F800000#32
  let main_v50 : FVec F S128x64 .f32 := broadcastInDim S128x64 ![] bcast_S_S128x64 main_cst_18
  fn_part3 (F := F) main_arg14 main_arg15 main_arg16 main_v48 main_v49 main_v50

def fn_part1 {F : FTy → Type} [FloatOps F] (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128x64 .f32) (main_arg14 : FVec F S64 .f32) (main_arg15 : FVec F S64x2 .f32) (main_arg16 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_v33

def fn {F : FTy → Type} [FloatOps F] (main_arg0 : IVec S100000 32) (main_arg1 : IVec S2x600000 32) (main_arg2 : FVec F S600000 .f32) (main_arg3 : IVec S100000 32) (main_arg4 : FVec F S30000x128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128x64 .f32) (main_arg14 : FVec F S64 .f32) (main_arg15 : FVec F S64x2 .f32) (main_arg16 : FVec F S2 .f32) : IVec S_ 1 :=
  let main_v0 : FVec F S600000 .f32 := Host.absf main_arg2
  let main_cst : FVec F S_ .f32 := constant S_ .f32 0x7F800000#32
  let main_v1 : FVec F S600000 .f32 := broadcastInDim S600000 ![] bcast_S_S600000 main_cst
  let main_v2 : IVec S600000 1 := cmpf .olt main_v0 main_v1
  let main_c : IVec S_ 1 := constantI S_ 1 1#1
  let main_v3 : IVec S_ 1 := (fun x v => Host.reduce IntOp.andi x v reducesTo_S600000_S_d0 h_S_) main_v2 main_c
  let main_v4 : FVec F S30000x128 .f32 := Host.absf main_arg4
  let main_cst_0 : FVec F S_ .f32 := constant S_ .f32 0x7F800000#32
  let main_v5 : FVec F S30000x128 .f32 := broadcastInDim S30000x128 ![] bcast_S_S30000x128 main_cst_0
  let main_v6 : IVec S30000x128 1 := cmpf .olt main_v4 main_v5
  let main_c_1 : IVec S_ 1 := constantI S_ 1 1#1
  let main_v7 : IVec S_ 1 := (fun x v => Host.reduce IntOp.andi x v reducesTo_S30000x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_arg16 main_v13 main_v16
-- ==== Kernel.lean ====
abbrev S100000 : Shape := ⟨1, ![100000]⟩
abbrev S2x600000 : Shape := ⟨2, ![2, 600000]⟩
abbrev S600000 : Shape := ⟨1, ![600000]⟩
abbrev S30000x128 : Shape := ⟨2, ![30000, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x600000 : Shape := ⟨2, ![1, 600000]⟩
abbrev S_ : Shape := ⟨0, ![]⟩
abbrev S1 : Shape := ⟨1, ![1]⟩
abbrev S100000x1 : Shape := ⟨2, ![100000, 1]⟩
abbrev S100000x128 : Shape := ⟨2, ![100000, 128]⟩
abbrev S600000x1 : Shape := ⟨2, ![600000, 1]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩
abbrev S600000x128 : Shape := ⟨2, ![600000, 128]⟩
abbrev S64x128 : Shape := ⟨2, ![64, 128]⟩
abbrev S64x1 : Shape := ⟨2, ![64, 1]⟩
abbrev S1x64 : Shape := ⟨2, ![1, 64]⟩
abbrev S1x2 : Shape := ⟨2, ![1, 2]⟩
abbrev S64x64 : Shape := ⟨2, ![64, 64]⟩

abbrev nBuf : Space → Nat
  | .hbm => 126
  | .vmem => 38
  | .smem => 0
  | _ => 0

abbrev bufTy : (tb : Table) → Fin (tcTables nBuf tb) → BufTy
  | .hbm, ⟨0, _⟩ => ⟨S100000, .i32⟩
  | .hbm, ⟨1, _⟩ => ⟨S2x600000, .i32⟩
  | .hbm, ⟨2, _⟩ => ⟨S600000, .f32⟩
  | .hbm, ⟨3, _⟩ => ⟨S100000, .i32⟩
  | .hbm, ⟨4, _⟩ => ⟨S30000x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S64x2, .f32⟩
  | .hbm, ⟨16, _⟩ => ⟨S2, .f32⟩
  | .hbm, ⟨17, _⟩ => ⟨S1x600000, .i32⟩
  | .hbm, ⟨18, _⟩ => ⟨S600000, .i32⟩
  | .hbm, ⟨19, _⟩ => ⟨S1x600000, .i32⟩
  | .hbm, ⟨20, _⟩ => ⟨S600000, .i32⟩
  | .hbm, ⟨21, _⟩ => ⟨S_, .i32⟩
  | .hbm, ⟨22, _⟩ => ⟨S1, .i32⟩
  | .hbm, ⟨23, _⟩ => ⟨S_, .f32⟩
  | .hbm, ⟨24, _⟩ => ⟨S128, .f32⟩
  | .hbm, ⟨25, _⟩ => ⟨S30000x128, .f32⟩
  | .hbm, ⟨26, _⟩ => ⟨S_, .i32⟩
  | .hbm, ⟨27, _⟩ => ⟨S100000, .i32⟩
  | .hbm, ⟨28, _⟩ => ⟨S100000, .i1⟩
  | .hbm, ⟨29, _⟩ => ⟨S_, .i32⟩
  | .hbm, ⟨30, _⟩ => ⟨S100000, .i32⟩
  | .hbm, ⟨31, _⟩ => ⟨S100000, .i32⟩
  | .hbm, ⟨32, _⟩ => ⟨S100000, .i32⟩
  | .hbm, ⟨33, _⟩ => ⟨S100000x1, .i32⟩
  | .hbm, ⟨34, _⟩ => ⟨S100000x128, .f32⟩
  | .hbm, ⟨35, _⟩ => ⟨S_, .f32⟩
  | .hbm, ⟨36, _⟩ => ⟨S100000, .f32⟩
  | .hbm, ⟨37, _⟩ => ⟨S600000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000, .f32⟩
  | .hbm, ⟨52, _⟩ => ⟨S600000, .f32⟩
  | .hbm, ⟨53, _⟩ => ⟨S_, .i32⟩
  | .hbm, ⟨54, _⟩ => ⟨S600000, .i32⟩
  | .hbm, ⟨55, _⟩ => ⟨S600000, .i1⟩
  | .hbm, ⟨56, _⟩ => ⟨S_, .i32⟩
  | .hbm, ⟨57, _⟩ => ⟨S600000, .i32⟩
  | .hbm, ⟨58, _⟩ => ⟨S600000, .i32⟩
  | .hbm, ⟨59, _⟩ => ⟨S600000, .i32⟩
  | .hbm, ⟨60, _⟩ => ⟨S600000x1, .i32⟩
  | .hbm, ⟨61, _⟩ => ⟨S600000, .f32⟩
  | .hbm, ⟨62, _⟩ => ⟨S600000, .f32⟩
  | .hbm, ⟨63, _⟩ => ⟨S100000, .f32⟩
  | .hbm, ⟨64, _⟩ => ⟨S100000x1, .f32⟩
  | .hbm, ⟨65, _⟩ => ⟨S1x128, .f32⟩
  | .hbm, ⟨66, _⟩ => ⟨S1x128, .f32⟩
  | .hbm, ⟨67, _⟩ => ⟨S100000x128, .f32⟩
  | .hbm, ⟨68, _⟩ => ⟨S_, .i32⟩
  | .hbm, ⟨69, _⟩ => ⟨S600000, .i32⟩
  | .hbm, ⟨70, _⟩ => ⟨S600000, .i1⟩
  | .hbm, ⟨71, _⟩ => ⟨S_, .i32⟩
  | .hbm, ⟨72, _⟩ => ⟨S600000, .i32⟩
  | .hbm, ⟨73, _⟩ => ⟨S600000, .i32⟩
  | .hbm, ⟨74, _⟩ => ⟨S600000, .i32⟩
  | .hbm, ⟨75, _⟩ => ⟨S600000x1, .i32⟩
  | .hbm, ⟨76, _⟩ => ⟨S600000x128, .f32⟩
  | .hbm, ⟨77, _⟩ => ⟨S600000x1, .f32⟩
  | .hbm, ⟨78, _⟩ => ⟨S600000x128, .f32⟩
  | .hbm, ⟨79, _⟩ => ⟨S600000x128, .f32⟩
  | .hbm, ⟨80, _⟩ => ⟨S_, .f32⟩
  | .hbm, ⟨81, _⟩ => ⟨S100000x128, .f32⟩
  | .hbm, ⟨82, _⟩ => ⟨S600000x1, .i32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S1x128, .f32⟩
  | .hbm, ⟨87, _⟩ => ⟨S1x128, .f32⟩
  | .hbm, ⟨88, _⟩ => ⟨S100000x128, .f32⟩
  | .hbm, ⟨89, _⟩ => ⟨S_, .i32⟩
  | .hbm, ⟨90, _⟩ => ⟨S600000, .i32⟩
  | .hbm, ⟨91, _⟩ => ⟨S600000, .i1⟩
  | .hbm, ⟨92, _⟩ => ⟨S_, .i32⟩
  | .hbm, ⟨93, _⟩ => ⟨S600000, .i32⟩
  | .hbm, ⟨94, _⟩ => ⟨S600000, .i32⟩
  | .hbm, ⟨95, _⟩ => ⟨S600000, .i32⟩
  | .hbm, ⟨96, _⟩ => ⟨S600000x1, .i32⟩
  | .hbm, ⟨97, _⟩ => ⟨S600000x128, .f32⟩
  | .hbm, ⟨98, _⟩ => ⟨S600000x1, .f32⟩
  | .hbm, ⟨99, _⟩ => ⟨S600000x128, .f32⟩
  | .hbm, ⟨100, _⟩ => ⟨S600000x128, .f32⟩
  | .hbm, ⟨101, _⟩ => ⟨S_, .f32⟩
  | .hbm, ⟨102, _⟩ => ⟨S100000x128, .f32⟩
  | .hbm, ⟨103, _⟩ => ⟨S600000x1, .i32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S_, .f32⟩
  | .hbm, ⟨108, _⟩ => ⟨S100000, .f32⟩
  | .hbm, ⟨109, _⟩ => ⟨S_, .f32⟩
  | .hbm, ⟨110, _⟩ => ⟨S64, .f32⟩
  | .hbm, ⟨111, _⟩ => ⟨S100000x1, .i32⟩
  | .hbm, ⟨112, _⟩ => ⟨S64, .f32⟩
  | .hbm, ⟨113, _⟩ => ⟨S_, .f32⟩
  | .hbm, ⟨114, _⟩ => ⟨S64x128, .f32⟩
  | .hbm, ⟨115, _⟩ => ⟨S100000x1, .i32⟩
  | .hbm, ⟨116, _⟩ => ⟨S64x128, .f32⟩
  | .hbm, ⟨117, _⟩ => ⟨S_, .f32⟩
  | .hbm, ⟨118, _⟩ => ⟨S64, .f32⟩
  | .hbm, ⟨119, _⟩ => ⟨S64, .f32⟩
  | .hbm, ⟨120, _⟩ => ⟨S64x1, .f32⟩
  | .hbm, ⟨121, _⟩ => ⟨S64x128, .f32⟩
  | .hbm, ⟨122, _⟩ => ⟨S64x128, .f32⟩
  | .hbm, ⟨123, _⟩ => ⟨S1x64, .f32⟩
  | .hbm, ⟨124, _⟩ => ⟨S1x2, .f32⟩
  | .hbm, ⟨125, _⟩ => ⟨S64x2, .f32⟩
  | .local _ .vmem, ⟨0, _⟩ => ⟨S2000x128, .f32⟩
  | .local _ .vmem, ⟨1, _⟩ => ⟨S2000x128, .f32⟩
  | .local _ .vmem, ⟨2, _⟩ => ⟨S1x128, .f32⟩
  | .local _ .vmem, ⟨3, _⟩ => ⟨S1x128, .f32⟩
  | .local _ .vmem, ⟨4, _⟩ => ⟨S128x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x1, .f32⟩
  | .local _ .vmem, ⟨12, _⟩ => ⟨S2000x1, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S1x128, .f32⟩
  | .local _ .vmem, ⟨19, _⟩ => ⟨S1x128, .f32⟩
  | .local _ .vmem, ⟨20, _⟩ => ⟨S128x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x1, .f32⟩
  | .local _ .vmem, ⟨28, _⟩ => ⟨S2000x1, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S64x128, .f32⟩
  | .local _ .vmem, ⟨33, _⟩ => ⟨S128x64, .f32⟩
  | .local _ .vmem, ⟨34, _⟩ => ⟨S1x64, .f32⟩
  | .local _ .vmem, ⟨35, _⟩ => ⟨S64x2, .f32⟩
  | .local _ .vmem, ⟨36, _⟩ => ⟨S1x2, .f32⟩
  | .local _ .vmem, ⟨37, _⟩ => ⟨S64x2, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_c_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_c_5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_6 : Ref sig .tc := ⟨.hbm, 53, rfl⟩
abbrev main_v28 : Ref sig .tc := ⟨.hbm, 54, rfl⟩
abbrev main_v29 : Ref sig .tc := ⟨.hbm, 55, rfl⟩
abbrev main_c_7 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_8 : Ref sig .tc := ⟨.hbm, 68, rfl⟩
abbrev main_v41 : Ref sig .tc := ⟨.hbm, 69, rfl⟩
abbrev main_v42 : Ref sig .tc := ⟨.hbm, 70, rfl⟩
abbrev main_c_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_11 : Ref sig .tc := ⟨.hbm, 89, rfl⟩
abbrev main_v59 : Ref sig .tc := ⟨.hbm, 90, rfl⟩
abbrev main_v60 : Ref sig .tc := ⟨.hbm, 91, rfl⟩
abbrev main_c_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_14 : Ref sig .tc := ⟨.hbm, 107, rfl⟩
abbrev main_v74 : Ref sig .tc := ⟨.hbm, 108, rfl⟩
abbrev main_cst_15 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_16 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_17 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem1_0 : DmaSem sig := 33
abbrev cc4_sem2_0 : DmaSem sig := 34
abbrev cc4_sem3_0 : DmaSem sig := 35
abbrev cc4_sem4_0 : DmaSem sig := 36
abbrev cc4_sem5_0 : DmaSem sig := 37

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x2 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S1 : S_.BroadcastsInDim S1 (![] : Fin 0 → Fin S1.rank)
  bcast_S_S128 : S_.BroadcastsInDim S128 (![] : Fin 0 → Fin S128.rank)
  bcast_S_S100000 : S_.BroadcastsInDim S100000 (![] : Fin 0 → Fin S100000.rank)
  bcast_S100000_S100000x1_0 : S100000.BroadcastsInDim S100000x1 (![0] : Fin 1 → Fin S100000x1.rank)
  bcast_S600000_S600000x1_0 : S600000.BroadcastsInDim S600000x1 (![0] : Fin 1 → Fin S600000x1.rank)
  bcast_S_S600000 : S_.BroadcastsInDim S600000 (![] : Fin 0 → Fin S600000.rank)
  shapeCasts_S100000_S100000x1 : S100000.ShapeCasts S100000x1
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  reduces_S2000x128_S2000 : S2000x128.Reduces [1] S2000
  shapeCasts_S2000_S2000x1 : S2000.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S64_S1x64 : S64.ShapeCasts S1x64
  shapeCasts_S2_S1x2 : S2.ShapeCasts S1x2
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  scatter_S30000x128_S1_S128_0_0_0_0_wf : ScatterDims.WF S30000x128 S1 S128 [0] [0] [0] 0
  gather_S30000x128_S100000x1_S100000x128_1_0_n_n_0_1_1128_wf : GatherDims.WF S30000x128 S100000x1 S100000x128 [1] [0] [] [0] [] 1 ![1, 128]
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  dot_S2000x128_S128x128_S2000x128_1_0_0_1_n_n_wf : DotDims.WF S2000x128 S128x128 S2000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x64_S64x64_1_0_0_1_n_n_wf : DotDims.WF S64x128 S128x64 S64x64 [1] [0] [0] [1] [] []
  dot_S64x64_S64x2_S64x2_1_0_0_1_n_n_wf : DotDims.WF S64x64 S64x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S100000x128.size a
  hwx2_4 : ∀ i : grid2.Coords, EltTy.bits .f32 = 32 ∨ (Rect.block (s := S100000x128) S2000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x2.size a ≤ S64x2.size a
  hwx4_3 : ∀ i : grid4.Coords, EltTy.bits .f32 = 32 ∨ (Rect.block (s := S64x2) S64x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x2.size a ≤ S1x2.size a
  hwx4_4 : ∀ i : grid4.Coords, EltTy.bits .f32 = 32 ∨ (Rect.block (s := S1x2) S1x2.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x2.size a ≤ S64x2.size a
  hwx4_5 : ∀ i : grid4.Coords, EltTy.bits .f32 = 32 ∨ (Rect.block (s := S64x2) S64x2.size (cc4_transform_5 i) (hinb4_5 i)).WholeWords (EltTy.packing .f32)

variable [Facts₀]

def scatter_S30000x128_S1_S128_0_0_0_0 : ScatterDims S30000x128 S1 S128 where
  updateWindowDims := [0]
  insertedWindowDims := [0]
  scatterDimsToOperandDims := [0]
  indexVectorDim := 0
  wf := scatter_S30000x128_S1_S128_0_0_0_0_wf
def gather_S30000x128_S100000x1_S100000x128_1_0_n_n_0_1_1128 : GatherDims S30000x128 S100000x1 S100000x128 where
  offsetDims := [1]
  collapsedSliceDims := [0]
  operandBatchingDims := []
  startIndicesBatchingDims := []
  startIndexMap := [0]
  indexVectorDim := 1
  sliceSizes := ![1, 128]
  wf := gather_S30000x128_S100000x1_S100000x128_1_0_n_n_0_1_1128_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v53) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v54) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v55) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v71) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v72) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v85) S64x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v86) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg15) S64x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v87) S1x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v88) S64x2.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000 : Shape := ⟨1, ![100000]⟩
abbrev S2x600000 : Shape := ⟨2, ![2, 600000]⟩
abbrev S600000 : Shape := ⟨1, ![600000]⟩
abbrev S30000x128 : Shape := ⟨2, ![30000, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x600000 : Shape := ⟨2, ![1, 600000]⟩
abbrev S_ : Shape := ⟨0, ![]⟩
abbrev S1 : Shape := ⟨1, ![1]⟩
abbrev S100000x1 : Shape := ⟨2, ![100000, 1]⟩
abbrev S100000x128 : Shape := ⟨2, ![100000, 128]⟩
abbrev S1x128 : Shape := ⟨2, ![1, 128]⟩
abbrev S600000x1 : Shape := ⟨2, ![600000, 1]⟩
abbrev S600000x128 : Shape := ⟨2, ![600000, 128]⟩
abbrev S64x128 : Shape := ⟨2, ![64, 128]⟩
abbrev S64x1 : Shape := ⟨2, ![64, 1]⟩
abbrev S64x64 : Shape := ⟨2, ![64, 64]⟩
abbrev S1x64 : Shape := ⟨2, ![1, 64]⟩
abbrev S1x2 : Shape := ⟨2, ![1, 2]⟩

abbrev nBuf : Space → Nat
  | .hbm => 232
  | .vmem => 0
  | .smem => 0
  | _ => 0

abbrev hbmTy0_0 (i : Nat) : BufTy := match i % 128 with
  | 0 => ⟨S100000, .i32⟩
  | 1 => ⟨S2x600000, .i32⟩
  | 2 => ⟨S600000, .f32⟩
  | 3 => ⟨S100000, .i32⟩
  | 4 => ⟨S30000x128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128x64, .f32⟩
  | 14 => ⟨S64, .f32⟩
  | 15 => ⟨S64x2, .f32⟩
  | 16 => ⟨S2, .f32⟩
  | 17 => ⟨S1x600000, .i32⟩
  | 18 => ⟨S600000, .i32⟩
  | 19 => ⟨S1x600000, .i32⟩
  | 20 => ⟨S600000, .i32⟩
  | 21 => ⟨S_, .i32⟩
  | 22 => ⟨S1, .i32⟩
  | 23 => ⟨S_, .f32⟩
  | 24 => ⟨S128, .f32⟩
  | 25 => ⟨S30000x128, .f32⟩
  | 26 => ⟨S_, .i32⟩
  | 27 => ⟨S100000, .i32⟩
  | 28 => ⟨S100000, .i1⟩
  | 29 => ⟨S_, .i32⟩
  | 30 => ⟨S100000, .i32⟩
  | 31 => ⟨S100000, .i32⟩
  | 32 => ⟨S100000, .i32⟩
  | 33 => ⟨S100000x1, .i32⟩
  | 34 => ⟨S100000x128, .f32⟩
  | 35 => ⟨S_, .f32⟩
  | 36 => ⟨S100000, .f32⟩
  | 37 => ⟨S100000x1, .f32⟩
  | 38 => ⟨S_, .f32⟩
  | 39 => ⟨S100000x1, .f32⟩
  | 40 => ⟨S100000x1, .f32⟩
  | 41 => ⟨S100000x128, .f32⟩
  | 42 => ⟨S100000x128, .f32⟩
  | 43 => ⟨S100000x128, .f32⟩
  | 44 => ⟨S_, .f32⟩
  | 45 => ⟨S100000, .f32⟩
  | 46 => ⟨S100000x1, .f32⟩
  | 47 => ⟨S_, .f32⟩
  | 48 => ⟨S100000x1, .f32⟩
  | 49 => ⟨S100000x1, .f32⟩
  | 50 => ⟨S100000x128, .f32⟩
  | 51 => ⟨S100000x128, .f32⟩
  | 52 => ⟨S_, .f32⟩
  | 53 => ⟨S100000x1, .f32⟩
  | 54 => ⟨S100000x1, .f32⟩
  | 55 => ⟨S100000x1, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S100000x128, .f32⟩
  | 65 => ⟨S_, .f32⟩
  | 66 => ⟨S100000, .f32⟩
  | 67 => ⟨S600000x1, .i32⟩
  | 68 => ⟨S100000, .f32⟩
  | 69 => ⟨S_, .f32⟩
  | 70 => ⟨S100000, .f32⟩
  | 71 => ⟨S100000, .f32⟩
  | 72 => ⟨S100000, .f32⟩
  | 73 => ⟨S_, .i32⟩
  | 74 => ⟨S600000, .i32⟩
  | 75 => ⟨S600000, .i1⟩
  | 76 => ⟨S_, .i32⟩
  | 77 => ⟨S600000, .i32⟩
  | 78 => ⟨S600000, .i32⟩
  | 79 => ⟨S600000, .i32⟩
  | 80 => ⟨S600000x1, .i32⟩
  | 81 => ⟨S600000, .f32⟩
  | 82 => ⟨S600000, .f32⟩
  | 83 => ⟨S_, .i32⟩
  | 84 => ⟨S600000, .i32⟩
  | 85 => ⟨S600000, .i1⟩
  | 86 => ⟨S_, .i32⟩
  | 87 => ⟨S600000, .i32⟩
  | 88 => ⟨S600000, .i32⟩
  | 89 => ⟨S600000, .i32⟩
  | 90 => ⟨S600000x1, .i32⟩
  | 91 => ⟨S600000, .f32⟩
  | 92 => ⟨S600000, .f32⟩
  | 93 => ⟨S_, .i32⟩
  | 94 => ⟨S600000, .i32⟩
  | 95 => ⟨S600000, .i1⟩
  | 96 => ⟨S_, .i32⟩
  | 97 => ⟨S600000, .i32⟩
  | 98 => ⟨S600000, .i32⟩
  | 99 => ⟨S600000, .i32⟩
  | 100 => ⟨S600000x1, .i32⟩
  | 101 => ⟨S600000x128, .f32⟩
  | 102 => ⟨S600000x1, .f32⟩
  | 103 => ⟨S600000x128, .f32⟩
  | 104 => ⟨S600000x128, .f32⟩
  | 105 => ⟨S_, .f32⟩
  | 106 => ⟨S100000x128, .f32⟩
  | 107 => ⟨S600000x1, .i32⟩
  | 108 => ⟨S100000x128, .f32⟩
  | 109 => ⟨S100000, .f32⟩
  | 110 => ⟨S100000x1, .f32⟩
  | 111 => ⟨S100000x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S_, .f32⟩
  | 121 => ⟨S100000, .f32⟩
  | 122 => ⟨S100000x1, .f32⟩
  | 123 => ⟨S_, .f32⟩
  | 124 => ⟨S100000x1, .f32⟩
  | 125 => ⟨S100000x1, .f32⟩
  | 126 => ⟨S100000x128, .f32⟩
  | 127 => ⟨S100000x128, .f32⟩
  | _ => ⟨S100000, .i32⟩

abbrev hbmTy0_1 (i : Nat) : BufTy := match i % 128 with
  | 0 => ⟨S100000x128, .f32⟩
  | 1 => ⟨S_, .f32⟩
  | 2 => ⟨S100000, .f32⟩
  | 3 => ⟨S100000x1, .f32⟩
  | 4 => ⟨S_, .f32⟩
  | 5 => ⟨S100000x1, .f32⟩
  | 6 => ⟨S100000x1, .f32⟩
  | 7 => ⟨S100000x128, .f32⟩
  | 8 => ⟨S100000x128, .f32⟩
  | 9 => ⟨S_, .f32⟩
  | 10 => ⟨S100000x1, .f32⟩
  | 11 => ⟨S100000x1, .f32⟩
  | 12 => ⟨S100000x1, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S1x128, .f32⟩
  | 19 => ⟨S100000x128, .f32⟩
  | 20 => ⟨S100000x128, .f32⟩
  | 21 => ⟨S100000x128, .f32⟩
  | 22 => ⟨S_, .f32⟩
  | 23 => ⟨S100000, .f32⟩
  | 24 => ⟨S600000x1, .i32⟩
  | 25 => ⟨S100000, .f32⟩
  | 26 => ⟨S_, .f32⟩
  | 27 => ⟨S100000, .f32⟩
  | 28 => ⟨S100000, .f32⟩
  | 29 => ⟨S100000, .f32⟩
  | 30 => ⟨S_, .i32⟩
  | 31 => ⟨S600000, .i32⟩
  | 32 => ⟨S600000, .i1⟩
  | 33 => ⟨S_, .i32⟩
  | 34 => ⟨S600000, .i32⟩
  | 35 => ⟨S600000, .i32⟩
  | 36 => ⟨S600000, .i32⟩
  | 37 => ⟨S600000x1, .i32⟩
  | 38 => ⟨S600000, .f32⟩
  | 39 => ⟨S600000, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000, .f32⟩
  | 49 => ⟨S600000, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000x128, .f32⟩
  | 59 => ⟨S600000x1, .f32⟩
  | 60 => ⟨S600000x128, .f32⟩
  | 61 => ⟨S600000x128, .f32⟩
  | 62 => ⟨S_, .f32⟩
  | 63 => ⟨S100000x128, .f32⟩
  | 64 => ⟨S600000x1, .i32⟩
  | 65 => ⟨S100000x128, .f32⟩
  | 66 => ⟨S100000, .f32⟩
  | 67 => ⟨S100000x1, .f32⟩
  | 68 => ⟨S100000x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S_, .f32⟩
  | 78 => ⟨S100000, .f32⟩
  | 79 => ⟨S_, .f32⟩
  | 80 => ⟨S64, .f32⟩
  | 81 => ⟨S100000x1, .i32⟩
  | 82 => ⟨S64, .f32⟩
  | 83 => ⟨S_, .f32⟩
  | 84 => ⟨S64x128, .f32⟩
  | 85 => ⟨S100000x1, .i32⟩
  | 86 => ⟨S64x128, .f32⟩
  | 87 => ⟨S_, .f32⟩
  | 88 => ⟨S64, .f32⟩
  | 89 => ⟨S64, .f32⟩
  | 90 => ⟨S64x1, .f32⟩
  | 91 => ⟨S64x128, .f32⟩
  | 92 => ⟨S64x128, .f32⟩
  | 93 => ⟨S64x64, .f32⟩
  | 94 => ⟨S1x64, .f32⟩
  | 95 => ⟨S64x64, .f32⟩
  | 96 => ⟨S64x64, .f32⟩
  | 97 => ⟨S_, .f32⟩
  | 98 => ⟨S64x64, .f32⟩
  | 99 => ⟨S64x64, .f32⟩
  | 100 => ⟨S64x2, .f32⟩
  | 101 => ⟨S1x2, .f32⟩
  | 102 => ⟨S64x2, .f32⟩
  | 103 => ⟨S64x2, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_c_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_cst_3 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_4 : Ref sig .tc := ⟨.hbm, 44, rfl⟩
abbrev main_v21 : Ref sig .tc := ⟨.hbm, 45, rfl⟩
abbrev main_v22 : Ref sig .tc := ⟨.hbm, 46, rfl⟩
abbrev main_cst_5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_6 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_9 : Ref sig .tc := ⟨.hbm, 73, rfl⟩
abbrev main_v45 : Ref sig .tc := ⟨.hbm, 74, rfl⟩
abbrev main_v46 : Ref sig .tc := ⟨.hbm, 75, rfl⟩
abbrev main_c_10 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_11 : Ref sig .tc := ⟨.hbm, 83, rfl⟩
abbrev main_v53 : Ref sig .tc := ⟨.hbm, 84, rfl⟩
abbrev main_v54 : Ref sig .tc := ⟨.hbm, 85, rfl⟩
abbrev main_c_12 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_13 : Ref sig .tc := ⟨.hbm, 93, rfl⟩
abbrev main_v61 : Ref sig .tc := ⟨.hbm, 94, rfl⟩
abbrev main_v62 : Ref sig .tc := ⟨.hbm, 95, rfl⟩
abbrev main_c_14 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_15 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_call0_cst : Ref sig .tc := ⟨.hbm, 117, rfl⟩
abbrev main_call0_v0 : Ref sig .tc := ⟨.hbm, 118, rfl⟩
abbrev main_v82 : Ref sig .tc := ⟨.hbm, 119, rfl⟩
abbrev main_cst_16 : Ref sig .tc := ⟨.hbm, 120, rfl⟩
abbrev main_v83 : Ref sig .tc := ⟨.hbm, 121, rfl⟩
abbrev main_v84 : Ref sig .tc := ⟨.hbm, 122, rfl⟩
abbrev main_cst_17 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_18 : Ref sig .tc := ⟨.hbm, 129, rfl⟩
abbrev main_v90 : Ref sig .tc := ⟨.hbm, 130, rfl⟩
abbrev main_v91 : Ref sig .tc := ⟨.hbm, 131, rfl⟩
abbrev main_cst_19 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_20 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_21 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_22 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_c_23 : Ref sig .tc := ⟨.hbm, 158, rfl⟩
abbrev main_v114 : Ref sig .tc := ⟨.hbm, 159, rfl⟩
abbrev main_v115 : Ref sig .tc := ⟨.hbm, 160, rfl⟩
abbrev main_c_24 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_c_25 : Ref sig .tc := ⟨.hbm, 168, rfl⟩
abbrev main_v122 : Ref sig .tc := ⟨.hbm, 169, rfl⟩
abbrev main_v123 : Ref sig .tc := ⟨.hbm, 170, rfl⟩
abbrev main_c_26 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_c_27 : Ref sig .tc := ⟨.hbm, 178, rfl⟩
abbrev main_v130 : Ref sig .tc := ⟨.hbm, 179, rfl⟩
abbrev main_v131 : Ref sig .tc := ⟨.hbm, 180, rfl⟩
abbrev main_c_28 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_cst_29 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_call1_cst : Ref sig .tc := ⟨.hbm, 202, rfl⟩
abbrev main_call1_v0 : Ref sig .tc := ⟨.hbm, 203, rfl⟩
abbrev main_v151 : Ref sig .tc := ⟨.hbm, 204, rfl⟩
abbrev main_cst_30 : Ref sig .tc := ⟨.hbm, 205, rfl⟩
abbrev main_v152 : Ref sig .tc := ⟨.hbm, 206, rfl⟩
abbrev main_cst_31 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_cst_32 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_cst_33 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_call2_cst : Ref sig .tc := ⟨.hbm, 225, rfl⟩
abbrev main_call2_v0 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S1 : S_.BroadcastsInDim S1 (![] : Fin 0 → Fin S1.rank)
  bcast_S_S128 : S_.BroadcastsInDim S128 (![] : Fin 0 → Fin S128.rank)
  bcast_S_S100000 : S_.BroadcastsInDim S100000 (![] : Fin 0 → Fin S100000.rank)
  bcast_S100000_S100000x1_0 : S100000.BroadcastsInDim S100000x1 (![0] : Fin 1 → Fin S100000x1.rank)
  reducesTo_S100000x128_S100000_d1 : S100000x128.ReducesTo [1] S100000
  h_S_ : 0 < S_.numel
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S30000x128_S1_S128_0_0_0_0_wf : ScatterDims.WF S30000x128 S1 S128 [0] [0] [0] 0
  gather_S30000x128_S100000x1_S100000x128_1_0_n_n_0_1_1128_wf : GatherDims.WF S30000x128 S100000x1 S100000x128 [1] [0] [] [0] [] 1 ![1, 128]
  dot_S100000x128_S128x128_S100000x128_1_0_0_1_n_n_wf : DotDims.WF S100000x128 S128x128 S100000x128 [1] [0] [0] [1] [] []
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x64_S64x64_1_0_0_1_n_n_wf : DotDims.WF S64x128 S128x64 S64x64 [1] [0] [0] [1] [] []
  dot_S64x64_S64x2_S64x2_1_0_0_1_n_n_wf : DotDims.WF S64x64 S64x2 S64x2 [1] [0] [0] [1] [] []

variable [Facts₀]

def scatter_S30000x128_S1_S128_0_0_0_0 : ScatterDims S30000x128 S1 S128 where
  updateWindowDims := [0]
  insertedWindowDims := [0]
  scatterDimsToOperandDims := [0]
  indexVectorDim := 0
  wf := scatter_S30000x128_S1_S128_0_0_0_0_wf
def gather_S30000x128_S100000x1_S100000x128_1_0_n_n_0_1_1128 : GatherDims S30000x128 S100000x1 S100000x128 where
  offsetDims := [1]
  collapsedSliceDims := [0]
  operandBatchingDims := []
  startIndicesBatchingDims := []
  startIndexMap := [0]
  indexVectorDim := 1
  sliceSizes := ![1, 128]
  wf := gather_S30000x128_S100000x1_S100000x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

class Facts : Prop extends Facts₀ where

variable [Facts]
-- ==== Proof.KRun.lean ====
/-
  The idealized kernel's run, with every buffer named.

  The program is five kernel regions among five stretches of host operations. Folding the segments from the launch
  memory gives the contents of every buffer at each boundary: a host stretch applies its operations, a region
  replaces its arrays by what its write-backs leave and keeps the rest. The statement here is the general one: every
  weakly fair execution terminates without a fault, and EVERY buffer outside the kernels' scratch ends at the last
  boundary's contents. Two consequences are read off it: the result buffer ends at those contents at the result
  (which the later modules read back, region by region, as a function of the arguments), and each argument array,
  which no host operation and no region writes, ends as launched.
-/
import proofs.«169815_j46626164965918_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of @main terminates, nothing faulting, and every buffer outside the kernels' scratch
    ends at the contents the fold through the ten segments gives it. The launch: the ten segments are @main; each
    pipeline occurs once; at the start every such buffer holds the launch memory, the generator register some state,
    and nothing is owed; at the end the buffers' points-to facts are read against the final state. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch tokens are owned as given; nothing else is asked of any core
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      -- at the start each core holds its buffers at the launch memory, its register, and owes nothing
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      -- at the end the held buffers are read against the final state
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The result buffer is one of those buffers: it ends at the last boundary's contents at the result. With it, each
    argument array ends as launched (no host operation and no region writes one). -/
theorem run_result : θ_run defs (onTc (τ := τ) (main (F := F))) ⟨m, fun _ => 0, ρ⟩ (fun r => ∀ c : Dev nD,
      r.2.mem ((c.tc : Thread nD τ).loc main_v88) = W10 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
      ⟨h c _ (mem_uc main_v88 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c)⟩)
    (run_all m ρ)

end Cert.KernelIdeal.RunValue

end
-- ==== Proof.KFold.lean ====
/-
  Carrying buffers through the idealized kernel's fold.

  The contents of the buffers at the ten segment boundaries are a fold from the launch memory: a host stretch
  applies its operations (it changes exactly the buffers its operations write), a kernel region replaces its
  window arrays by what its write-backs leave (and, its inputs being left as entered, changes only its output
  array). So a buffer keeps its contents across a host stretch that does not write it and across a region of which
  it is no window array. This module lists what each host stretch writes, states the two kinds of crossing once
  per boundary, and carries back the buffers the later modules read at a boundary after the one where they were
  made: the arguments, the two index rows of the edge list, the edge normalisation and the self-loop scale.
-/
import proofs.«169815_j46626164965918_1_alg».proof.Proof.Gen.KernelIdeal.Frame
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## What each host stretch writes -/

/-- The first stretch: the edge list's two rows, the embedding table with row 0 zeroed and its gather, the degrees,
    their reciprocal roots, the edge normalisation, the self-loop scale, and the first layer's reshaped scale and shift. -/
abbrev ops0_W : List (Ref sig .tc) :=
  [main_v0, main_v1, main_v2, main_v3, main_c, main_v4, main_cst, main_v5, main_v6, main_c_0, main_v7, main_v8, main_c_1,
   main_v9, main_v10, main_v11, main_v12, main_v13, main_cst_2, main_v14, main_v15, main_v16, main_cst_3, main_v17,
   main_v18, main_v19, main_c_4, main_v20, main_v21, main_c_5, main_v22, main_v23, main_v24, main_v25, main_v26,
   main_v27, main_c_6, main_v28, main_v29, main_c_7, main_v30, main_v31, main_v32, main_v33, main_v34, main_v35,
   main_v36, main_v37, main_v38, main_v39]
/-- The second stretch: the first layer's gathered, scaled and scattered messages, and its reshaped bias. -/
abbrev ops1_W : List (Ref sig .tc) :=
  [main_c_8, main_v41, main_v42, main_c_9, main_v43, main_v44, main_v45, main_v46, main_v47, main_v48, main_v49,
   main_v50, main_cst_10, main_v51, main_v52, main_v53, main_v54]
/-- The third stretch: the second layer's reshaped scale and shift. -/
abbrev ops2_W : List (Ref sig .tc) := [main_v56, main_v57]
/-- The fourth stretch: the second layer's messages and its reshaped bias. -/
abbrev ops3_W : List (Ref sig .tc) :=
  [main_c_11, main_v59, main_v60, main_c_12, main_v61, main_v62, main_v63, main_v64, main_v65, main_v66, main_v67,
   main_v68, main_cst_13, main_v69, main_v70, main_v71, main_v72]
/-- The fifth stretch: the per-graph counts and sums, their quotient, and the head's two reshaped biases. -/
abbrev ops4_W : List (Ref sig .tc) :=
  [main_cst_14, main_v74, main_cst_15, main_v75, main_v76, main_v77, main_cst_16, main_v78, main_v79, main_v80,
   main_cst_17, main_v81, main_v82, main_v83, main_v84, main_v85, main_v86, main_v87]

/-- One operation's result buffer is in the list: each builder writes its result only. -/
macro "writes_in_list" : tactic =>
  `(tactic| (
      simp only [StableHlo.nullary_writes, StableHlo.unary_writes, StableHlo.binary_writes, StableHlo.ternary_writes,
        StableHlo.quaternary_writes, StableHlo.reshape_writes, StableHlo.binaryIndexed_writes,
        StableHlo.unaryIndexed_writes, StableHlo.nary_writes, Finset.singleton_subset_iff, List.mem_toFinset]
      exact List.mem_map_of_mem (by decide)))

theorem ops0_writes : (hostOps0 : List (HloOp τ sig (Elt F))).Forall fun op => op.writes ⊆ (ops0_W.map (Proc.devRef (τ := τ) .tc)).toFinset := by
  simp only [hostOps0, List.Forall]
  repeat' apply And.intro
  all_goals writes_in_list
theorem ops1_writes : (hostOps1 : List (HloOp τ sig (Elt F))).Forall fun op => op.writes ⊆ (ops1_W.map (Proc.devRef (τ := τ) .tc)).toFinset := by
  simp only [hostOps1, List.Forall]
  repeat' apply And.intro
  all_goals writes_in_list
theorem ops2_writes : (hostOps2 : List (HloOp τ sig (Elt F))).Forall fun op => op.writes ⊆ (ops2_W.map (Proc.devRef (τ := τ) .tc)).toFinset := by
  simp only [hostOps2, List.Forall]
  repeat' apply And.intro
  all_goals writes_in_list
theorem ops3_writes : (hostOps3 : List (HloOp τ sig (Elt F))).Forall fun op => op.writes ⊆ (ops3_W.map (Proc.devRef (τ := τ) .tc)).toFinset := by
  simp only [hostOps3, List.Forall]
  repeat' apply And.intro
  all_goals writes_in_list
theorem ops4_writes : (hostOps4 : List (HloOp τ sig (Elt F))).Forall fun op => op.writes ⊆ (ops4_W.map (Proc.devRef (τ := τ) .tc)).toFinset := by
  simp only [hostOps4, List.Forall]
  repeat' apply And.intro
  all_goals writes_in_list

/-! ## Crossing one boundary -/

/-- A buffer the first stretch does not write holds the launch memory after it, -/
theorem W1_of (c : Dev nD) (r : Ref sig .tc) (h : r ∉ ops0_W) : W1 m ρ c (Proc.devRef .tc r) = m ((c : Thread nD τ).loc r) :=
  StableHlo.after_of_writes_sub hostOps0 _ ops0_writes h
/-- and likewise across each later stretch. -/
theorem W3_of (c : Dev nD) (r : Ref sig .tc) (h : r ∉ ops1_W) : W3 m ρ c (Proc.devRef .tc r) = W2 m ρ c (Proc.devRef .tc r) :=
  StableHlo.after_of_writes_sub hostOps1 _ ops1_writes h
theorem W5_of (c : Dev nD) (r : Ref sig .tc) (h : r ∉ ops2_W) : W5 m ρ c (Proc.devRef .tc r) = W4 m ρ c (Proc.devRef .tc r) :=
  StableHlo.after_of_writes_sub hostOps2 _ ops2_writes h
theorem W7_of (c : Dev nD) (r : Ref sig .tc) (h : r ∉ ops3_W) : W7 m ρ c (Proc.devRef .tc r) = W6 m ρ c (Proc.devRef .tc r) :=
  StableHlo.after_of_writes_sub hostOps3 _ ops3_writes h
theorem W9_of (c : Dev nD) (r : Ref sig .tc) (h : r ∉ ops4_W) : W9 m ρ c (Proc.devRef .tc r) = W8 m ρ c (Proc.devRef .tc r) :=
  StableHlo.after_of_writes_sub hostOps4 _ ops4_writes h

/-! ## Carried down to the first boundary

A reference that no later stretch writes and that is no window array of an earlier region holds, at a later
boundary, what it held after the first stretch. One statement per boundary; the hypotheses are the crossings, each
decided over references at the use site. -/

section Carry
variable (c : Dev nD) (r : Ref sig .tc)

theorem from2 (h0 : ∀ w, Pipeline.arrRef spec0 w ≠ r) :
    W2 m ρ c (Proc.devRef .tc r) = W1 m ρ c (Proc.devRef .tc r) := W2_of_ne m ρ c r h0
theorem from3 (h0 : ∀ w, Pipeline.arrRef spec0 w ≠ r) (h1 : r ∉ ops1_W) :
    W3 m ρ c (Proc.devRef .tc r) = W1 m ρ c (Proc.devRef .tc r) := (W3_of m ρ c r h1).trans (from2 m ρ c r h0)
theorem from4 (h0 : ∀ w, Pipeline.arrRef spec0 w ≠ r) (h1 : r ∉ ops1_W) (h2 : ∀ w, Pipeline.arrRef spec1 w ≠ r) :
    W4 m ρ c (Proc.devRef .tc r) = W1 m ρ c (Proc.devRef .tc r) := (W4_of_ne m ρ c r h2).trans (from3 m ρ c r h0 h1)
theorem from5 (h0 : ∀ w, Pipeline.arrRef spec0 w ≠ r) (h1 : r ∉ ops1_W) (h2 : ∀ w, Pipeline.arrRef spec1 w ≠ r) (h3 : r ∉ ops2_W) :
    W5 m ρ c (Proc.devRef .tc r) = W1 m ρ c (Proc.devRef .tc r) := (W5_of m ρ c r h3).trans (from4 m ρ c r h0 h1 h2)
theorem from6 (h0 : ∀ w, Pipeline.arrRef spec0 w ≠ r) (h1 : r ∉ ops1_W) (h2 : ∀ w, Pipeline.arrRef spec1 w ≠ r) (h3 : r ∉ ops2_W)
    (h4 : ∀ w, Pipeline.arrRef spec2 w ≠ r) :
    W6 m ρ c (Proc.devRef .tc r) = W1 m ρ c (Proc.devRef .tc r) := (W6_of_ne m ρ c r h4).trans (from5 m ρ c r h0 h1 h2 h3)
theorem from7 (h0 : ∀ w, Pipeline.arrRef spec0 w ≠ r) (h1 : r ∉ ops1_W) (h2 : ∀ w, Pipeline.arrRef spec1 w ≠ r) (h3 : r ∉ ops2_W)
    (h4 : ∀ w, Pipeline.arrRef spec2 w ≠ r) (h5 : r ∉ ops3_W) :
    W7 m ρ c (Proc.devRef .tc r) = W1 m ρ c (Proc.devRef .tc r) := (W7_of m ρ c r h5).trans (from6 m ρ c r h0 h1 h2 h3 h4)
theorem from8 (h0 : ∀ w, Pipeline.arrRef spec0 w ≠ r) (h1 : r ∉ ops1_W) (h2 : ∀ w, Pipeline.arrRef spec1 w ≠ r) (h3 : r ∉ ops2_W)
    (h4 : ∀ w, Pipeline.arrRef spec2 w ≠ r) (h5 : r ∉ ops3_W) (h6 : ∀ w, Pipeline.arrRef spec3 w ≠ r) :
    W8 m ρ c (Proc.devRef .tc r) = W1 m ρ c (Proc.devRef .tc r) := (W8_of_ne m ρ c r h6).trans (from7 m ρ c r h0 h1 h2 h3 h4 h5)
theorem from9 (h0 : ∀ w, Pipeline.arrRef spec0 w ≠ r) (h1 : r ∉ ops1_W) (h2 : ∀ w, Pipeline.arrRef spec1 w ≠ r) (h3 : r ∉ ops2_W)
    (h4 : ∀ w, Pipeline.arrRef spec2 w ≠ r) (h5 : r ∉ ops3_W) (h6 : ∀ w, Pipeline.arrRef spec3 w ≠ r) (h7 : r ∉ ops4_W) :
    W9 m ρ c (Proc.devRef .tc r) = W1 m ρ c (Proc.devRef .tc r) := (W9_of m ρ c r h7).trans (from8 m ρ c r h0 h1 h2 h3 h4 h5 h6)

end Carry

/-! ## The arguments, where a stretch or a region reads them -/

section Args
variable (c : Dev nD)

/-- The first layer's bias, read by the second stretch. -/
theorem W2_arg8 : W2 m ρ c (Proc.devRef .tc main_arg8) = m ((c : Thread nD τ).loc main_arg8) :=
  (from2 m ρ c main_arg8 (by decide)).trans (W1_of m ρ c main_arg8 (by decide))
/-- The first layer's weights, a window array of region 0. -/
theorem W1_arg7 : W1 m ρ c (Proc.devRef .tc main_arg7) = m ((c : Thread nD τ).loc main_arg7) := W1_of m ρ c main_arg7 (by decide)
/-- The second layer's scale and shift, read by the third stretch. -/
theorem W4_arg9 : W4 m ρ c (Proc.devRef .tc main_arg9) = m ((c : Thread nD τ).loc main_arg9) :=
  (from4 m ρ c main_arg9 (by decide) (by decide) (by decide)).trans (W1_of m ρ c main_arg9 (by decide))
theorem W4_arg10 : W4 m ρ c (Proc.devRef .tc main_arg10) = m ((c : Thread nD τ).loc main_arg10) :=
  (from4 m ρ c main_arg10 (by decide) (by decide) (by decide)).trans (W1_of m ρ c main_arg10 (by decide))
/-- The second layer's weights, a window array of region 2. -/
theorem W5_arg11 : W5 m ρ c (Proc.devRef .tc main_arg11) = m ((c : Thread nD τ).loc main_arg11) :=
  (from5 m ρ c main_arg11 (by decide) (by decide) (by decide) (by decide)).trans (W1_of m ρ c main_arg11 (by decide))
/-- The second layer's bias, read by the fourth stretch. -/
theorem W6_arg12 : W6 m ρ c (Proc.devRef .tc main_arg12) = m ((c : Thread nD τ).loc main_arg12) :=
  (from6 m ρ c main_arg12 (by decide) (by decide) (by decide) (by decide) (by decide)).trans (W1_of m ρ c main_arg12 (by decide))
/-- The graph of each node and the head's two biases, read by the fifth stretch. -/
theorem W8_arg3 : W8 m ρ c (Proc.devRef .tc main_arg3) = m ((c : Thread nD τ).loc main_arg3) :=
  (from8 m ρ c main_arg3 (by decide) (by decide) (by decide) (by decide) (by decide) (by decide) (by decide)).trans (W1_of m ρ c main_arg3 (by decide))
theorem W8_arg14 : W8 m ρ c (Proc.devRef .tc main_arg14) = m ((c : Thread nD τ).loc main_arg14) :=
  (from8 m ρ c main_arg14 (by decide) (by decide) (by decide) (by decide) (by decide) (by decide) (by decide)).trans (W1_of m ρ c main_arg14 (by decide))
theorem W8_arg16 : W8 m ρ c (Proc.devRef .tc main_arg16) = m ((c : Thread nD τ).loc main_arg16) :=
  (from8 m ρ c main_arg16 (by decide) (by decide) (by decide) (by decide) (by decide) (by decide) (by decide)).trans (W1_of m ρ c main_arg16 (by decide))
/-- The head's two weight matrices, window arrays of region 4. -/
theorem W9_arg13 : W9 m ρ c (Proc.devRef .tc main_arg13) = m ((c : Thread nD τ).loc main_arg13) :=
  (from9 m ρ c main_arg13 (by decide) (by decide) (by decide) (by decide) (by decide) (by decide) (by decide) (by decide)).trans (W1_of m ρ c main_arg13 (by decide))
theorem W9_arg15 : W9 m ρ c (Proc.devRef .tc main_arg15) = m ((c : Thread nD τ).loc main_arg15) :=
  (from9 m ρ c main_arg15 (by decide) (by decide) (by decide) (by decide) (by decide) (by decide) (by decide) (by decide)).trans (W1_of m ρ c main_arg15 (by decide))

end Args

end Cert.KernelIdeal.Fold

end
-- ==== Proof.Spec.lean ====
/-
  What the two programs compute, written once on the extended reals, entry by entry.

  A graph-convolution layer first normalises each row of its [100000, 128] input — subtract the row's mean,
  multiply by the reciprocal square root of the row's variance plus a small constant, scale and shift per column —
  and multiplies the normalised rows by a [128, 128] weight matrix; an entry of the product depends on ONE row of
  the input and ONE column of the weights (`lnmmElt`). The messages gathered along the edges are then combined
  with the node's own scaled entry and a bias and clipped below at zero, entry by entry (`combElt`). After two such
  layers the rows are pooled per graph and passed through a two-stage head: a [128, 64] product plus bias clipped at
  zero (`headHidden`), then a [64, 2] product plus bias (`headOut`).

  Sums are over the 128 (or 64) coordinates of the contracted axis, in no particular order: addition of extended
  reals is commutative and associative, so a lane reduction, a host reduction from a zero initial value and a matrix
  product into a zero accumulator all read as the same sum, and no law that needs finiteness is used anywhere.
-/
import Idealize.ShloMosaic.PureOps.Ideal
import Idealize.ShloMosaic.Lib.ValueIdx

noncomputable section

namespace Cert.Spec

open Idealize.ShloMosaic Idealize.ShloMosaic.ValueIdx

/-- The divisor 128 of a row's mean and variance: the same float word in both programs. -/
abbrev c128 : EReal := Ideal.ofBits .f32 0x43000000#32
/-- The small constant added to the variance: the same float word in both programs. -/
abbrev cEps : EReal := Ideal.ofBits .f32 0x3727C5AC#32
/-- The zero a value is clipped at. -/
abbrev cZero : EReal := Ideal.ofBits .f32 0x00000000#32

/-- A row's mean: the sum of its 128 entries over 128. -/
def rowMean (x : Fin 128 → EReal) : EReal := Ideal.div (∑ k : Fin 128, x k) c128

/-- A row's variance: the mean of the squared deviations from the row's mean. -/
def rowVar (x : Fin 128 → EReal) : EReal :=
  Ideal.div (∑ k : Fin 128, (x k - rowMean x) * (x k - rowMean x)) c128

/-- Entry `k` of the normalised row: the deviation times the reciprocal root of variance plus the constant, scaled by
    `s k` and shifted by `b k` — grouped as both programs group it. -/
def lnElt (x s b : Fin 128 → EReal) (k : Fin 128) : EReal :=
  (x k - rowMean x) * Ideal.rsqrt (rowVar x + cEps) * s k + b k

/-- One entry of (normalised rows) × weights: the normalised row against one column `w` of the weights. -/
def lnmmElt (x s b w : Fin 128 → EReal) : EReal := ∑ k : Fin 128, lnElt x s b k * w k

/-- One entry of the combine step: gathered messages plus the node's own entry times its self-loop scale, plus the
    bias, clipped below at zero. -/
def combElt (agg h scale b : EReal) : EReal := max (agg + h * scale + b) cZero

/-- One entry of the head's hidden stage: a pooled row against a column of the first weights, plus bias, clipped. -/
def headHidden (g w1 : Fin 128 → EReal) (b1 : EReal) : EReal := max ((∑ k : Fin 128, g k * w1 k) + b1) cZero

/-- One entry of the head's output: the hidden row against a column of the second weights, plus bias. -/
def headOut (h w2 : Fin 64 → EReal) (b2 : EReal) : EReal := (∑ k : Fin 64, h k * w2 k) + b2

/-! ## The same, array by array -/

/-- A one-axis array of extended reals. -/
abbrev A1 (n : Nat) := (⟨1, ![n]⟩ : Shape).Idx → EReal
/-- A two-axis array of extended reals. -/
abbrev A2 (n0 n1 : Nat) := (⟨2, ![n0, n1]⟩ : Shape).Idx → EReal

/-- Normalise the rows of `x` with scale `s` and shift `b`, then multiply by `w`. -/
def lnmm (x : A2 100000 128) (s b : A1 128) (w : A2 128 128) : A2 100000 128 := fun i =>
  lnmmElt (fun k => x (ix2 (i 0) k)) (fun k => s (ix1 k)) (fun k => b (ix1 k)) (fun k => w (ix2 k (i 1)))

/-- The combine step over whole arrays: `scale` is a column, `b` a row. -/
def comb (agg h : A2 100000 128) (scale : A2 100000 1) (b : A1 128) : A2 100000 128 := fun i =>
  combElt (agg i) (h i) (scale (ix2 (i 0) 0)) (b (ix1 (i 1)))

/-- The head over whole arrays: pooled rows `g` [64, 128] to [64, 2]. -/
def head (g : A2 64 128) (w1 : A2 128 64) (b1 : A1 64) (w2 : A2 64 2) (b2 : A1 2) : A2 64 2 := fun i =>
  headOut (fun j => headHidden (fun k => g (ix2 (i 0) k)) (fun k => w1 (ix2 k j)) (b1 (ix1 j)))
    (fun j => w2 (ix2 j (i 1))) (b2 (ix1 (i 1)))

end Cert.Spec

end
-- ==== Proof.SpecRows.lean ====
/-
  The specification's three array functions once more, with the per-column parameters (scale, shift, bias) held
  as [1, n] ROWS instead of [n] vectors. A kernel's window sees such a parameter as a one-row array (the host
  reshapes the vector before the call), the reference broadcasts the vector itself; entry (0, k) of the row is
  entry k of the vector, and under that reading the row forms are the vector forms.
-/
import proofs.«169815_j46626164965918_1_alg».proof.Proof.Spec

noncomputable section

namespace Cert.Spec

open Idealize.ShloMosaic Idealize.ShloMosaic.ValueIdx

/-- Normalise the rows of `x` with the one-row arrays `s`, `b`, then multiply by `w`. -/
def lnmmR (x : A2 100000 128) (s b : A2 1 128) (w : A2 128 128) : A2 100000 128 := fun i =>
  lnmmElt (fun k => x (ix2 (i 0) k)) (fun k => s (ix2 0 k)) (fun k => b (ix2 0 k)) (fun k => w (ix2 k (i 1)))

/-- The combine step with the bias a one-row array. -/
def combR (agg h : A2 100000 128) (scale : A2 100000 1) (b : A2 1 128) : A2 100000 128 := fun i =>
  combElt (agg i) (h i) (scale (ix2 (i 0) 0)) (b (ix2 0 (i 1)))

/-- The head with both biases one-row arrays. -/
def headR (g : A2 64 128) (w1 : A2 128 64) (b1 : A2 1 64) (w2 : A2 64 2) (b2 : A2 1 2) : A2 64 2 := fun i =>
  headOut (fun j => headHidden (fun k => g (ix2 (i 0) k)) (fun k => w1 (ix2 k j)) (b1 (ix2 0 j)))
    (fun j => w2 (ix2 j (i 1))) (b2 (ix2 0 (i 1)))

/-- A row that holds a vector's entries makes the row form the vector form. -/
theorem lnmmR_eq (x : A2 100000 128) (s b : A2 1 128) (s' b' : A1 128) (w : A2 128 128)
    (hs : ∀ k : Fin 128, s (ix2 0 k) = s' (ix1 k)) (hb : ∀ k : Fin 128, b (ix2 0 k) = b' (ix1 k)) :
    lnmmR x s b w = lnmm x s' b' w := by
  funext i
  unfold lnmmR lnmm
  rw [funext hs, funext hb]

theorem combR_eq (agg h : A2 100000 128) (scale : A2 100000 1) (b : A2 1 128) (b' : A1 128)
    (hb : ∀ k : Fin 128, b (ix2 0 k) = b' (ix1 k)) : combR agg h scale b = comb agg h scale b' :=
  funext fun i => congrArg (combElt (agg i) (h i) (scale (ix2 (i 0) 0))) (hb (i 1))

theorem headR_eq (g : A2 64 128) (w1 : A2 128 64) (b1 : A2 1 64) (b1' : A1 64) (w2 : A2 64 2) (b2 : A2 1 2) (b2' : A1 2)
    (h1 : ∀ j : Fin 64, b1 (ix2 0 j) = b1' (ix1 j)) (h2 : ∀ j : Fin 2, b2 (ix2 0 j) = b2' (ix1 j)) :
    headR g w1 b1 w2 b2 = head g w1 b1' w2 b2' :=
  funext fun i =>
    (congrArg (fun f : Fin 64 → EReal => headOut f (fun j => w2 (ix2 j (i 1))) (b2 (ix2 0 (i 1))))
        (funext fun j => congrArg (headHidden (fun k => g (ix2 (i 0) k)) (fun k => w1 (ix2 k j))) (h1 j))).trans
      (congrArg (headOut (fun j => headHidden (fun k => g (ix2 (i 0) k)) (fun k => w1 (ix2 k j)) (b1' (ix1 j)))
        (fun j => w2 (ix2 j (i 1)))) (h2 (i 1)))

/-- The combine step reads the scale column only at (r, 0): two columns that agree there give the same array. -/
theorem comb_scale (agg h : A2 100000 128) (s s' : A2 100000 1) (b : A1 128)
    (hs : ∀ r : Fin 100000, s (ix2 r 0) = s' (ix2 r 0)) : comb agg h s b = comb agg h s' b :=
  funext fun i => congrArg (fun z : EReal => combElt (agg i) (h i) z (b (ix1 (i 1)))) (hs (i 0))

end Cert.Spec

end
-- ==== Proof.KReg0.lean ====
/-
  What kernel region 0 leaves in its output array.

  The region runs the layer-norm-and-multiply body over a grid of 50 points. At point t the input window holds
  rows 2000·t … 2000·t + 1999 of the [100000, 128] input, the three parameter windows hold their whole one-block
  arrays (scale and shift as [1, 128] rows, the [128, 128] weights), and the output window's block, written back at
  every point, is rows 2000·t … 2000·t + 1999 of the result. An entry of the body's result depends on one row of
  its input block and one column of the weights, and row p of block t IS row 2000·t + p of the array; so each
  block written back is the matching band of ONE whole-array function, the row-normalised input times the weights.
  The 50 bands cover every row (row r lies in band r / 2000), hence the array after the region is that function.
-/
import proofs.«169815_j46626164965918_1_alg».proof.Proof.Gen.KernelIdeal.Frame
import proofs.«169815_j46626164965918_1_alg».proof.Proof.SpecRows
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The windows' block indices over the 50 grid points: input and output move down one band of rows per point,
    the parameter windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The array the region leaves: the rows of the input normalised with the one-row scale and shift, times the weights. -/
def out (c : Dev nD) : Buf (Elt Ideal) ((c : Thread nD τ).loc main_v40) :=
  Cert.Spec.lnmmR (V c main_v13) (V c main_v38) (V c main_v39) (V c main_arg7)

/-- The body's arithmetic read at an index, as the statement the body's own module proves. -/
abbrev PayloadReads : Prop :=
  ∀ (v0 : Vec Ideal S2000x128 .f32) (v20 v24 : Vec Ideal S1x128 .f32) (v29 : Vec Ideal S128x128 .f32) (p : Fin 2000) (q : Fin 128),
    k0_pay1 (F := Ideal) v0 v20 v24 v29 (ix2 p q)
      = Cert.Spec.lnmmElt (fun k => v0 (ix2 p k)) (fun k => v20 (ix2 0 k)) (fun k => v24 (ix2 0 k)) (fun k => v29 (ix2 k q))

set_option maxHeartbeats 2000000 in
/-- What point `t` writes back is band `t` of `out`: the body's entry (p, q) is the specification's entry of row p of
    the input block and column q of the weights, and row p of block t is row 2000·t + p of the array. -/
theorem flushed_eq (hpay : PayloadReads) (c : Dev nD) (t : Fin cfg0.N) :
    (dat0 V c).flushed 4 t = ((cfg0.win 4).blk t).view.read (Elt Ideal) (out V c) := by
  show (cfg0.win 4).cut (grid0.coords t) ((dat0 V c).after 4 t) = _
  rw [after0_4]
  unfold out0_4
  rw [View.canon_unit_zero hz]
  simp only [View.ld_unit_zero (S := S2000x128) hz, View.ld_unit_zero (S := S1x128) hz, View.ld_unit_zero (S := S128x128) hz]
  obtain ⟨e00, e01, e10, e11, e20, e21, e30, e31, e40, e41⟩ := idx_facts t
  funext j
  have hj : k0_pay1 (F := Ideal) (iblk0 V c 0 t) (iblk0 V c 1 t) (iblk0 V c 2 t) (iblk0 V c 3 t) j
      = Cert.Spec.lnmmElt (fun k => iblk0 V c 0 t (ix2 (j 0) k)) (fun k => iblk0 V c 1 t (ix2 0 k))
          (fun k => iblk0 V c 2 t (ix2 0 k)) (fun k => iblk0 V c 3 t (ix2 k (j 1))) := by
    exact (congrArg (k0_pay1 (F := Ideal) (iblk0 V c 0 t) (iblk0 V c 1 t) (iblk0 V c 2 t) (iblk0 V c 3 t)) (eq_ix2 (n0 := 2000) (n1 := 128) j)).trans
      (hpay (iblk0 V c 0 t) (iblk0 V c 1 t) (iblk0 V c 2 t) (iblk0 V c 3 t) (j 0) (j 1))
  refine hj.trans ?_
  have hx : (fun k : Fin 128 => iblk0 V c 0 t (ix2 (j 0) k))
      = fun k : Fin 128 => V c main_v13 (ix2 ((((cfg0.win 4).blk t).view.emb j) 0) k) := by
    funext k
    show V c main_v13 (((cfg0.win 0).blk t).view.emb (ix2 (j 0) k)) = _
    refine congrArg (V c main_v13) (funext fun a => Fin.ext ?_)
    match a with
    | ⟨0, _⟩ => show win0_0.index t (0 : Fin 2) * 2000 + 1 * (j 0).val = win0_4.index t (0 : Fin 2) * 2000 + 1 * (j 0).val; rw [e00, e40]
    | ⟨1, _⟩ => show win0_0.index t (1 : Fin 2) * 128 + 1 * k.val = k.val; rw [e01]; omega
  have hs : (fun k : Fin 128 => iblk0 V c 1 t (ix2 0 k)) = fun k : Fin 128 => V c main_v38 (ix2 0 k) := by
    funext k
    show V c main_v38 (((cfg0.win 1).blk t).view.emb (ix2 0 k)) = _
    refine congrArg (V c main_v38) (funext fun a => Fin.ext ?_)
    match a with
    | ⟨0, _⟩ => show win0_1.index t (0 : Fin 2) * 1 + 1 * 0 = 0; rw [e10]
    | ⟨1, _⟩ => show win0_1.index t (1 : Fin 2) * 128 + 1 * k.val = k.val; rw [e11]; omega
  have hb : (fun k : Fin 128 => iblk0 V c 2 t (ix2 0 k)) = fun k : Fin 128 => V c main_v39 (ix2 0 k) := by
    funext k
    show V c main_v39 (((cfg0.win 2).blk t).view.emb (ix2 0 k)) = _
    refine congrArg (V c main_v39) (funext fun a => Fin.ext ?_)
    match a with
    | ⟨0, _⟩ => show win0_2.index t (0 : Fin 2) * 1 + 1 * 0 = 0; rw [e20]
    | ⟨1, _⟩ => show win0_2.index t (1 : Fin 2) * 128 + 1 * k.val = k.val; rw [e21]; omega
  have hw : (fun k : Fin 128 => iblk0 V c 3 t (ix2 k (j 1)))
      = fun k : Fin 128 => V c main_arg7 (ix2 k ((((cfg0.win 4).blk t).view.emb j) 1)) := by
    funext k
    show V c main_arg7 (((cfg0.win 3).blk t).view.emb (ix2 k (j 1))) = _
    refine congrArg (V c main_arg7) (funext fun a => Fin.ext ?_)
    match a with
    | ⟨0, _⟩ => show win0_3.index t (0 : Fin 2) * 128 + 1 * k.val = k.val; rw [e30]; omega
    | ⟨1, _⟩ => show win0_3.index t (1 : Fin 2) * 128 + 1 * (j 1).val = win0_4.index t (1 : Fin 2) * 128 + 1 * (j 1).val; rw [e31, e41]
  show _ = out V c (((cfg0.win 4).blk t).view.emb j)
  unfold out Cert.Spec.lnmmR
  rw [hx, hs, hb, hw]

/-- An index of the array lies in point `t`'s block iff each coordinate lies in the block's range on its axis. -/
theorem mem_blk (t : Fin cfg0.N) (i : S100000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v40).slice (win0_4.rect t)).set ↔ _
  rw [View.set_slice_whole, Rect.mem_set_unit]
  exact Iff.rfl

/-- Every index is in some written-back block: row r lies in band r / 2000. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : grid0.N = 50 := N_0
  have ht : (i 0).val / 2000 < cfg0.N := by show (i 0).val / 2000 < grid0.N; rw [hN]; omega
  obtain ⟨-, -, -, -, -, -, -, -, e40, e41⟩ := idx_facts ⟨(i 0).val / 2000, ht⟩
  refine ⟨⟨(i 0).val / 2000, ht⟩, flush0_4 _, ?_⟩
  rw [mem_blk]
  intro a
  match a with
  | ⟨0, _⟩ =>
    show win0_4.index ⟨(i 0).val / 2000, ht⟩ (0 : Fin 2) * 2000 ≤ (i 0).val
      ∧ (i 0).val < win0_4.index ⟨(i 0).val / 2000, ht⟩ (0 : Fin 2) * 2000 + 2000
    rw [e40]
    show (i 0).val / 2000 * 2000 ≤ (i 0).val ∧ (i 0).val < (i 0).val / 2000 * 2000 + 2000
    omega
  | ⟨1, _⟩ =>
    show win0_4.index ⟨(i 0).val / 2000, ht⟩ (1 : Fin 2) * 128 ≤ (i 1).val
      ∧ (i 1).val < win0_4.index ⟨(i 0).val / 2000, ht⟩ (1 : Fin 2) * 128 + 128
    rw [e41]
    omega

/-- The output array after the region is `out`. -/
theorem final (hpay : PayloadReads) (c : Dev nD) : (dat0 V c).arrAt 4 cfg0.N = out V c :=
  (dat0 V c).arrAt_eq_of_cover 4 (out V c) (fun t _ => flushed_eq V hpay c t) (cover)

end Cert.KernelIdeal.Region0

end
-- ==== Proof.KReg1.lean ====
/-
  What kernel region 1 leaves in its output array.

  The region runs the combine-and-clip body over a grid of 50 points. At point t the windows of the gathered
  messages, of the node's own rows and of the self-loop scale column hold rows 2000·t … 2000·t + 1999 of their
  arrays ([100000, 128], [100000, 128], [100000, 1]), the bias window holds its whole [1, 128] row, and the output
  block written back is the same band of rows of the result. The body works entry by entry — messages plus own entry
  times the row's scale, plus the column's bias, clipped below at zero — and entry (p, q) of block t is entry
  (2000·t + p, q) of each array, so each block written back is the matching band of ONE whole-array function.
  The 50 bands cover every row, hence the array after the region is that function.
-/
import proofs.«169815_j46626164965918_1_alg».proof.Proof.Gen.KernelIdeal.Frame
import proofs.«169815_j46626164965918_1_alg».proof.Proof.SpecRows
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The windows' block indices over the 50 grid points: the three row-banded inputs and the output move down one
    band per point, the bias window stays at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The array the region leaves: messages plus own entry times the row's scale, plus bias, clipped at zero. -/
def out (c : Dev nD) : Buf (Elt Ideal) ((c : Thread nD τ).loc main_v55) :=
  Cert.Spec.combR (V c main_v53) (V c main_v40) (V c main_v37) (V c main_v54)

/-- The body's arithmetic read at an index, as the statement the body's own module proves. -/
abbrev PayloadReads : Prop :=
  ∀ (v0 v2 : Vec Ideal S2000x128 .f32) (v4 : Vec Ideal S2000x1 .f32) (v9 : Vec Ideal S1x128 .f32) (p : Fin 2000) (q : Fin 128),
    k1_pay1 (F := Ideal) v0 v2 v4 v9 (ix2 p q)
      = Cert.Spec.combElt (v0 (ix2 p q)) (v2 (ix2 p q)) (v4 (ix2 p 0)) (v9 (ix2 0 q))

set_option maxHeartbeats 2000000 in
/-- What point `t` writes back is band `t` of `out`. -/
theorem flushed_eq (hpay : PayloadReads) (c : Dev nD) (t : Fin cfg1.N) :
    (dat1 V c).flushed 4 t = ((cfg1.win 4).blk t).view.read (Elt Ideal) (out V c) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz, View.ld_unit_zero (S := S1x128) hz]
  obtain ⟨e00, e01, e10, e11, e20, e21, e30, e31, e40, e41⟩ := idx_facts t
  funext j
  have hj : k1_pay1 (F := Ideal) (iblk1 V c 0 t) (iblk1 V c 1 t) (iblk1 V c 2 t) (iblk1 V c 3 t) j
      = Cert.Spec.combElt (iblk1 V c 0 t (ix2 (j 0) (j 1))) (iblk1 V c 1 t (ix2 (j 0) (j 1))) (iblk1 V c 2 t (ix2 (j 0) 0)) (iblk1 V c 3 t (ix2 0 (j 1))) := by
    exact (congrArg (k1_pay1 (F := Ideal) (iblk1 V c 0 t) (iblk1 V c 1 t) (iblk1 V c 2 t) (iblk1 V c 3 t)) (eq_ix2 (n0 := 2000) (n1 := 128) j)).trans
      (hpay (iblk1 V c 0 t) (iblk1 V c 1 t) (iblk1 V c 2 t) (iblk1 V c 3 t) (j 0) (j 1))
  refine hj.trans ?_
  have h0 : iblk1 V c 0 t (ix2 (j 0) (j 1)) = V c main_v53 (((cfg1.win 4).blk t).view.emb j) := by
    show V c main_v53 (((cfg1.win 0).blk t).view.emb (ix2 (j 0) (j 1))) = _
    refine congrArg (V c main_v53) (funext fun a => Fin.ext ?_)
    match a with
    | ⟨0, _⟩ => show win1_0.index t (0 : Fin 2) * 2000 + 1 * (j 0).val = win1_4.index t (0 : Fin 2) * 2000 + 1 * (j 0).val; rw [e00, e40]
    | ⟨1, _⟩ => show win1_0.index t (1 : Fin 2) * 128 + 1 * (j 1).val = win1_4.index t (1 : Fin 2) * 128 + 1 * (j 1).val; rw [e01, e41]
  have h1 : iblk1 V c 1 t (ix2 (j 0) (j 1)) = V c main_v40 (((cfg1.win 4).blk t).view.emb j) := by
    show V c main_v40 (((cfg1.win 1).blk t).view.emb (ix2 (j 0) (j 1))) = _
    refine congrArg (V c main_v40) (funext fun a => Fin.ext ?_)
    match a with
    | ⟨0, _⟩ => show win1_1.index t (0 : Fin 2) * 2000 + 1 * (j 0).val = win1_4.index t (0 : Fin 2) * 2000 + 1 * (j 0).val; rw [e10, e40]
    | ⟨1, _⟩ => show win1_1.index t (1 : Fin 2) * 128 + 1 * (j 1).val = win1_4.index t (1 : Fin 2) * 128 + 1 * (j 1).val; rw [e11, e41]
  have h2 : iblk1 V c 2 t (ix2 (j 0) 0) = V c main_v37 (ix2 ((((cfg1.win 4).blk t).view.emb j) 0) 0) := by
    show V c main_v37 (((cfg1.win 2).blk t).view.emb (ix2 (j 0) 0)) = _
    refine congrArg (V c main_v37) (funext fun a => Fin.ext ?_)
    match a with
    | ⟨0, _⟩ => show win1_2.index t (0 : Fin 2) * 2000 + 1 * (j 0).val = win1_4.index t (0 : Fin 2) * 2000 + 1 * (j 0).val; rw [e20, e40]
    | ⟨1, _⟩ => show win1_2.index t (1 : Fin 2) * 1 + 1 * 0 = 0; rw [e21]
  have h3 : iblk1 V c 3 t (ix2 0 (j 1)) = V c main_v54 (ix2 0 ((((cfg1.win 4).blk t).view.emb j) 1)) := by
    show V c main_v54 (((cfg1.win 3).blk t).view.emb (ix2 0 (j 1))) = _
    refine congrArg (V c main_v54) (funext fun a => Fin.ext ?_)
    match a with
    | ⟨0, _⟩ => show win1_3.index t (0 : Fin 2) * 1 + 1 * 0 = 0; rw [e30]
    | ⟨1, _⟩ => show win1_3.index t (1 : Fin 2) * 128 + 1 * (j 1).val = win1_4.index t (1 : Fin 2) * 128 + 1 * (j 1).val; rw [e31, e41]
  show _ = out V c (((cfg1.win 4).blk t).view.emb j)
  unfold out Cert.Spec.combR
  rw [h0, h1, h2, h3]

/-- An index of the array lies in point `t`'s block iff each coordinate lies in the block's range on its axis. -/
theorem mem_blk (t : Fin cfg1.N) (i : S100000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v55).slice (win1_4.rect t)).set ↔ _
  rw [View.set_slice_whole, Rect.mem_set_unit]
  exact Iff.rfl

/-- Every index is in some written-back block: row r lies in band r / 2000. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 50 := N_1
  have ht : (i 0).val / 2000 < cfg1.N := by show (i 0).val / 2000 < grid1.N; rw [hN]; omega
  obtain ⟨-, -, -, -, -, -, -, -, e40, e41⟩ := idx_facts ⟨(i 0).val / 2000, ht⟩
  refine ⟨⟨(i 0).val / 2000, ht⟩, flush1_4 _, ?_⟩
  rw [mem_blk]
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    rw [e40]
    show (i 0).val / 2000 * 2000 ≤ (i 0).val ∧ (i 0).val < (i 0).val / 2000 * 2000 + 2000
    omega
  | ⟨1, _⟩ =>
    show win1_4.index ⟨(i 0).val / 2000, ht⟩ (1 : Fin 2) * 128 ≤ (i 1).val
      ∧ (i 1).val < win1_4.index ⟨(i 0).val / 2000, ht⟩ (1 : Fin 2) * 128 + 128
    rw [e41]
    omega

/-- The output array after the region is `out`. -/
theorem final (hpay : PayloadReads) (c : Dev nD) : (dat1 V c).arrAt 4 cfg1.N = out V c :=
  (dat1 V c).arrAt_eq_of_cover 4 (out V c) (fun t _ => flushed_eq V hpay c t) (cover)

end Cert.KernelIdeal.Region1

end
-- ==== Proof.KReg2.lean ====
/-
  What kernel region 2 leaves in its output array.

  The region runs the layer-norm-and-multiply body over a grid of 50 points. At point t the input window holds
  rows 2000·t … 2000·t + 1999 of the [100000, 128] input, the three parameter windows hold their whole one-block
  arrays (scale and shift as [1, 128] rows, the [128, 128] weights), and the output window's block, written back at
  every point, is rows 2000·t … 2000·t + 1999 of the result. An entry of the body's result depends on one row of
  its input block and one column of the weights, and row p of block t IS row 2000·t + p of the array; so each
  block written back is the matching band of ONE whole-array function, the row-normalised input times the weights.
  The 50 bands cover every row (row r lies in band r / 2000), hence the array after the region is that function.
-/
import proofs.«169815_j46626164965918_1_alg».proof.Proof.Gen.KernelIdeal.Frame
import proofs.«169815_j46626164965918_1_alg».proof.Proof.SpecRows
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The windows' block indices over the 50 grid points: input and output move down one band of rows per point,
    the parameter windows stay at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The array the region leaves: the rows of the input normalised with the one-row scale and shift, times the weights. -/
def out (c : Dev nD) : Buf (Elt Ideal) ((c : Thread nD τ).loc main_v58) :=
  Cert.Spec.lnmmR (V c main_v55) (V c main_v56) (V c main_v57) (V c main_arg11)

/-- The body's arithmetic read at an index, as the statement the body's own module proves. -/
abbrev PayloadReads : Prop :=
  ∀ (v0 : Vec Ideal S2000x128 .f32) (v20 v24 : Vec Ideal S1x128 .f32) (v29 : Vec Ideal S128x128 .f32) (p : Fin 2000) (q : Fin 128),
    k2_pay1 (F := Ideal) v0 v20 v24 v29 (ix2 p q)
      = Cert.Spec.lnmmElt (fun k => v0 (ix2 p k)) (fun k => v20 (ix2 0 k)) (fun k => v24 (ix2 0 k)) (fun k => v29 (ix2 k q))

set_option maxHeartbeats 2000000 in
/-- What point `t` writes back is band `t` of `out`: the body's entry (p, q) is the specification's entry of row p of
    the input block and column q of the weights, and row p of block t is row 2000·t + p of the array. -/
theorem flushed_eq (hpay : PayloadReads) (c : Dev nD) (t : Fin cfg2.N) :
    (dat2 V c).flushed 4 t = ((cfg2.win 4).blk t).view.read (Elt Ideal) (out V c) := by
  show (cfg2.win 4).cut (grid2.coords t) ((dat2 V c).after 4 t) = _
  rw [after2_4]
  unfold out2_4
  rw [View.canon_unit_zero hz]
  simp only [View.ld_unit_zero (S := S2000x128) hz, View.ld_unit_zero (S := S1x128) hz, View.ld_unit_zero (S := S128x128) hz]
  obtain ⟨e00, e01, e10, e11, e20, e21, e30, e31, e40, e41⟩ := idx_facts t
  funext j
  have hj : k2_pay1 (F := Ideal) (iblk2 V c 0 t) (iblk2 V c 1 t) (iblk2 V c 2 t) (iblk2 V c 3 t) j
      = Cert.Spec.lnmmElt (fun k => iblk2 V c 0 t (ix2 (j 0) k)) (fun k => iblk2 V c 1 t (ix2 0 k))
          (fun k => iblk2 V c 2 t (ix2 0 k)) (fun k => iblk2 V c 3 t (ix2 k (j 1))) := by
    exact (congrArg (k2_pay1 (F := Ideal) (iblk2 V c 0 t) (iblk2 V c 1 t) (iblk2 V c 2 t) (iblk2 V c 3 t)) (eq_ix2 (n0 := 2000) (n1 := 128) j)).trans
      (hpay (iblk2 V c 0 t) (iblk2 V c 1 t) (iblk2 V c 2 t) (iblk2 V c 3 t) (j 0) (j 1))
  refine hj.trans ?_
  have hx : (fun k : Fin 128 => iblk2 V c 0 t (ix2 (j 0) k))
      = fun k : Fin 128 => V c main_v55 (ix2 ((((cfg2.win 4).blk t).view.emb j) 0) k) := by
    funext k
    show V c main_v55 (((cfg2.win 0).blk t).view.emb (ix2 (j 0) k)) = _
    refine congrArg (V c main_v55) (funext fun a => Fin.ext ?_)
    match a with
    | ⟨0, _⟩ => show win2_0.index t (0 : Fin 2) * 2000 + 1 * (j 0).val = win2_4.index t (0 : Fin 2) * 2000 + 1 * (j 0).val; rw [e00, e40]
    | ⟨1, _⟩ => show win2_0.index t (1 : Fin 2) * 128 + 1 * k.val = k.val; rw [e01]; omega
  have hs : (fun k : Fin 128 => iblk2 V c 1 t (ix2 0 k)) = fun k : Fin 128 => V c main_v56 (ix2 0 k) := by
    funext k
    show V c main_v56 (((cfg2.win 1).blk t).view.emb (ix2 0 k)) = _
    refine congrArg (V c main_v56) (funext fun a => Fin.ext ?_)
    match a with
    | ⟨0, _⟩ => show win2_1.index t (0 : Fin 2) * 1 + 1 * 0 = 0; rw [e10]
    | ⟨1, _⟩ => show win2_1.index t (1 : Fin 2) * 128 + 1 * k.val = k.val; rw [e11]; omega
  have hb : (fun k : Fin 128 => iblk2 V c 2 t (ix2 0 k)) = fun k : Fin 128 => V c main_v57 (ix2 0 k) := by
    funext k
    show V c main_v57 (((cfg2.win 2).blk t).view.emb (ix2 0 k)) = _
    refine congrArg (V c main_v57) (funext fun a => Fin.ext ?_)
    match a with
    | ⟨0, _⟩ => show win2_2.index t (0 : Fin 2) * 1 + 1 * 0 = 0; rw [e20]
    | ⟨1, _⟩ => show win2_2.index t (1 : Fin 2) * 128 + 1 * k.val = k.val; rw [e21]; omega
  have hw : (fun k : Fin 128 => iblk2 V c 3 t (ix2 k (j 1)))
      = fun k : Fin 128 => V c main_arg11 (ix2 k ((((cfg2.win 4).blk t).view.emb j) 1)) := by
    funext k
    show V c main_arg11 (((cfg2.win 3).blk t).view.emb (ix2 k (j 1))) = _
    refine congrArg (V c main_arg11) (funext fun a => Fin.ext ?_)
    match a with
    | ⟨0, _⟩ => show win2_3.index t (0 : Fin 2) * 128 + 1 * k.val = k.val; rw [e30]; omega
    | ⟨1, _⟩ => show win2_3.index t (1 : Fin 2) * 128 + 1 * (j 1).val = win2_4.index t (1 : Fin 2) * 128 + 1 * (j 1).val; rw [e31, e41]
  show _ = out V c (((cfg2.win 4).blk t).view.emb j)
  unfold out Cert.Spec.lnmmR
  rw [hx, hs, hb, hw]

/-- An index of the array lies in point `t`'s block iff each coordinate lies in the block's range on its axis. -/
theorem mem_blk (t : Fin cfg2.N) (i : S100000x128.Idx) :
    i ∈ ((cfg2.win 4).blk t).view.set ↔ ∀ a : Fin 2, win2_4.index t a * S2000x128.size a ≤ (i a).val
      ∧ (i a).val < win2_4.index t a * S2000x128.size a + S2000x128.size a := by
  show i ∈ ((View.whole main_v58).slice (win2_4.rect t)).set ↔ _
  rw [View.set_slice_whole, Rect.mem_set_unit]
  exact Iff.rfl

/-- Every index is in some written-back block: row r lies in band r / 2000. -/
theorem cover (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : grid2.N = 50 := N_2
  have ht : (i 0).val / 2000 < cfg2.N := by show (i 0).val / 2000 < grid2.N; rw [hN]; omega
  obtain ⟨-, -, -, -, -, -, -, -, e40, e41⟩ := idx_facts ⟨(i 0).val / 2000, ht⟩
  refine ⟨⟨(i 0).val / 2000, ht⟩, flush2_4 _, ?_⟩
  rw [mem_blk]
  intro a
  match a with
  | ⟨0, _⟩ =>
    show win2_4.index ⟨(i 0).val / 2000, ht⟩ (0 : Fin 2) * 2000 ≤ (i 0).val
      ∧ (i 0).val < win2_4.index ⟨(i 0).val / 2000, ht⟩ (0 : Fin 2) * 2000 + 2000
    rw [e40]
    show (i 0).val / 2000 * 2000 ≤ (i 0).val ∧ (i 0).val < (i 0).val / 2000 * 2000 + 2000
    omega
  | ⟨1, _⟩ =>
    show win2_4.index ⟨(i 0).val / 2000, ht⟩ (1 : Fin 2) * 128 ≤ (i 1).val
      ∧ (i 1).val < win2_4.index ⟨(i 0).val / 2000, ht⟩ (1 : Fin 2) * 128 + 128
    rw [e41]
    omega

/-- The output array after the region is `out`. -/
theorem final (hpay : PayloadReads) (c : Dev nD) : (dat2 V c).arrAt 4 cfg2.N = out V c :=
  (dat2 V c).arrAt_eq_of_cover 4 (out V c) (fun t _ => flushed_eq V hpay c t) (cover)

end Cert.KernelIdeal.Region2

end
-- ==== Proof.KReg3.lean ====
/-
  What kernel region 3 leaves in its output array.

  The region runs the combine-and-clip body over a grid of 50 points. At point t the windows of the gathered
  messages, of the node's own rows and of the self-loop scale column hold rows 2000·t … 2000·t + 1999 of their
  arrays ([100000, 128], [100000, 128], [100000, 1]), the bias window holds its whole [1, 128] row, and the output
  block written back is the same band of rows of the result. The body works entry by entry — messages plus own entry
  times the row's scale, plus the column's bias, clipped below at zero — and entry (p, q) of block t is entry
  (2000·t + p, q) of each array, so each block written back is the matching band of ONE whole-array function.
  The 50 bands cover every row, hence the array after the region is that function.
-/
import proofs.«169815_j46626164965918_1_alg».proof.Proof.Gen.KernelIdeal.Frame
import proofs.«169815_j46626164965918_1_alg».proof.Proof.SpecRows
import Idealize.ShloMosaic.Lib.Pipeline.Value
import Idealize.ShloMosaic.Lib.ValueIdx

set_option maxRecDepth 16384

noncomputable section

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat)

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The windows' block indices over the 50 grid points: the three row-banded inputs and the output move down one
    band per point, the bias window stays at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The array the region leaves: messages plus own entry times the row's scale, plus bias, clipped at zero. -/
def out (c : Dev nD) : Buf (Elt Ideal) ((c : Thread nD τ).loc main_v73) :=
  Cert.Spec.combR (V c main_v71) (V c main_v58) (V c main_v37) (V c main_v72)

/-- The body's arithmetic read at an index, as the statement the body's own module proves. -/
abbrev PayloadReads : Prop :=
  ∀ (v0 v2 : Vec Ideal S2000x128 .f32) (v4 : Vec Ideal S2000x1 .f32) (v9 : Vec Ideal S1x128 .f32) (p : Fin 2000) (q : Fin 128),
    k3_pay1 (F := Ideal) v0 v2 v4 v9 (ix2 p q)
      = Cert.Spec.combElt (v0 (ix2 p q)) (v2 (ix2 p q)) (v4 (ix2 p 0)) (v9 (ix2 0 q))

set_option maxHeartbeats 2000000 in
/-- What point `t` writes back is band `t` of `out`. -/
theorem flushed_eq (hpay : PayloadReads) (c : Dev nD) (t : Fin cfg3.N) :
    (dat3 V c).flushed 4 t = ((cfg3.win 4).blk t).view.read (Elt Ideal) (out V c) := by
  show (cfg3.win 4).cut (grid3.coords t) ((dat3 V c).after 4 t) = _
  rw [after3_4]
  unfold out3_4
  rw [View.canon_unit_zero hz]
  simp only [View.ld_unit_zero (S := S2000x128) hz, View.ld_unit_zero (S := S2000x1) hz, View.ld_unit_zero (S := S1x128) hz]
  obtain ⟨e00, e01, e10, e11, e20, e21, e30, e31, e40, e41⟩ := idx_facts t
  funext j
  have hj : k3_pay1 (F := Ideal) (iblk3 V c 0 t) (iblk3 V c 1 t) (iblk3 V c 2 t) (iblk3 V c 3 t) j
      = Cert.Spec.combElt (iblk3 V c 0 t (ix2 (j 0) (j 1))) (iblk3 V c 1 t (ix2 (j 0) (j 1))) (iblk3 V c 2 t (ix2 (j 0) 0)) (iblk3 V c 3 t (ix2 0 (j 1))) := by
    exact (congrArg (k3_pay1 (F := Ideal) (iblk3 V c 0 t) (iblk3 V c 1 t) (iblk3 V c 2 t) (iblk3 V c 3 t)) (eq_ix2 (n0 := 2000) (n1 := 128) j)).trans
      (hpay (iblk3 V c 0 t) (iblk3 V c 1 t) (iblk3 V c 2 t) (iblk3 V c 3 t) (j 0) (j 1))
  refine hj.trans ?_
  have h0 : iblk3 V c 0 t (ix2 (j 0) (j 1)) = V c main_v71 (((cfg3.win 4).blk t).view.emb j) := by
    show V c main_v71 (((cfg3.win 0).blk t).view.emb (ix2 (j 0) (j 1))) = _
    refine congrArg (V c main_v71) (funext fun a => Fin.ext ?_)
    match a with
    | ⟨0, _⟩ => show win3_0.index t (0 : Fin 2) * 2000 + 1 * (j 0).val = win3_4.index t (0 : Fin 2) * 2000 + 1 * (j 0).val; rw [e00, e40]
    | ⟨1, _⟩ => show win3_0.index t (1 : Fin 2) * 128 + 1 * (j 1).val = win3_4.index t (1 : Fin 2) * 128 + 1 * (j 1).val; rw [e01, e41]
  have h1 : iblk3 V c 1 t (ix2 (j 0) (j 1)) = V c main_v58 (((cfg3.win 4).blk t).view.emb j) := by
    show V c main_v58 (((cfg3.win 1).blk t).view.emb (ix2 (j 0) (j 1))) = _
    refine congrArg (V c main_v58) (funext fun a => Fin.ext ?_)
    match a with
    | ⟨0, _⟩ => show win3_1.index t (0 : Fin 2) * 2000 + 1 * (j 0).val = win3_4.index t (0 : Fin 2) * 2000 + 1 * (j 0).val; rw [e10, e40]
    | ⟨1, _⟩ => show win3_1.index t (1 : Fin 2) * 128 + 1 * (j 1).val = win3_4.index t (1 : Fin 2) * 128 + 1 * (j 1).val; rw [e11, e41]
  have h2 : iblk3 V c 2 t (ix2 (j 0) 0) = V c main_v37 (ix2 ((((cfg3.win 4).blk t).view.emb j) 0) 0) := by
    show V c main_v37 (((cfg3.win 2).blk t).view.emb (ix2 (j 0) 0)) = _
    refine congrArg (V c main_v37) (funext fun a => Fin.ext ?_)
    match a with
    | ⟨0, _⟩ => show win3_2.index t (0 : Fin 2) * 2000 + 1 * (j 0).val = win3_4.index t (0 : Fin 2) * 2000 + 1 * (j 0).val; rw [e20, e40]
    | ⟨1, _⟩ => show win3_2.index t (1 : Fin 2) * 1 + 1 * 0 = 0; rw [e21]
  have h3 : iblk3 V c 3 t (ix2 0 (j 1)) = V c main_v72 (ix2 0 ((((cfg3.win 4).blk t).view.emb j) 1)) := by
    show V c main_v72 (((cfg3.win 3).blk t).view.emb (ix2 0 (j 1))) = _
    refine congrArg (V c main_v72) (funext fun a => Fin.ext ?_)
    match a with
    | ⟨0, _⟩ => show win3_3.index t (0 : Fin 2) * 1 + 1 * 0 = 0; rw [e30]
    | ⟨1, _⟩ => show win3_3.index t (1 : Fin 2) * 128 + 1 * (j 1).val = win3_4.index t (1 : Fin 2) * 128 + 1 * (j 1).val; rw [e31, e41]
  show _ = out V c (((cfg3.win 4).blk t).view.emb j)
  unfold out Cert.Spec.combR
  rw [h0, h1, h2, h3]

/-- An index of the array lies in point `t`'s block iff each coordinate lies in the block's range on its axis. -/
theorem mem_blk (t : Fin cfg3.N) (i : S100000x128.Idx) :
    i ∈ ((cfg3.win 4).blk t).view.set ↔ ∀ a : Fin 2, win3_4.index t a * S2000x128.size a ≤ (i a).val
      ∧ (i a).val < win3_4.index t a * S2000x128.size a + S2000x128.size a := by
  show i ∈ ((View.whole main_v73).slice (win3_4.rect t)).set ↔ _
  rw [View.set_slice_whole, Rect.mem_set_unit]
  exact Iff.rfl

/-- Every index is in some written-back block: row r lies in band r / 2000. -/
theorem cover (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : grid3.N = 50 := N_3
  have ht : (i 0).val / 2000 < cfg3.N := by show (i 0).val / 2000 < grid3.N; rw [hN]; omega
  obtain ⟨-, -, -, -, -, -, -, -, e40, e41⟩ := idx_facts ⟨(i 0).val / 2000, ht⟩
  refine ⟨⟨(i 0).val / 2000, ht⟩, flush3_4 _, ?_⟩
  rw [mem_blk]
  intro a
  match a with
  | ⟨0, _⟩ =>
    show win3_4.index ⟨(i 0).val / 2000, ht⟩ (0 : Fin 2) * 2000 ≤ (i 0).val
      ∧ (i 0).val < win3_4.index ⟨(i 0).val / 2000, ht⟩ (0 : Fin 2) * 2000 + 2000
    rw [e40]
    show (i 0).val / 2000 * 2000 ≤ (i 0).val ∧ (i 0).val < (i 0).val / 2000 * 2000 + 2000
    omega
  | ⟨1, _⟩ =>
    show win3_4.index ⟨(i 0).val / 2000, ht⟩ (1 : Fin 2) * 128 ≤ (i 1).val
      ∧ (i 1).val < win3_4.index ⟨(i 0).val / 2000, ht⟩ (1 : Fin 2) * 128 + 128
    rw [e41]
    omega

/-- The output array after the region is `out`. -/
theorem final (hpay : PayloadReads) (c : Dev nD) : (dat3 V c).arrAt 4 cfg3.N = out V c :=
  (dat3 V c).arrAt_eq_of_cover 4 (out V c) (fun t _ => flushed_eq V hpay c t) (cover)

end Cert.KernelIdeal.Region3

end
-- ==== Proof.KReg4.lean ====
/-
  What the last kernel region leaves in its output array.

  The head runs once (a grid of one point). Each of its six windows holds its whole array as one block: the pooled
  rows [64, 128], the first weights [128, 64], the first bias as a [1, 64] row, the second weights [64, 2], the
  second bias as a [1, 2] row, and the [64, 2] result. So the single block written back IS the result array, and
  its entry (p, q) is the specification's: the pooled row p against each column of the first weights, plus bias,
  clipped at zero, then that hidden row against column q of the second weights, plus bias.
-/
import proofs.«169815_j46626164965918_1_alg».proof.Proof.Gen.KernelIdeal.Frame
import proofs.«169815_j46626164965918_1_alg».proof.Proof.SpecRows
import Idealize.ShloMosaic.Lib.Pipeline.Value
import Idealize.ShloMosaic.Lib.ValueIdx

set_option maxRecDepth 16384

noncomputable section

namespace Cert.KernelIdeal.Region4

open Cert.KernelIdeal Cert.KernelIdeal.Gen
open Idealize.ShloMosaic Idealize.ShloMosaic.TcCoe Idealize.SL.Sem Idealize.ShloMosaic.ValueIdx
open Idealize.ShloMosaic.Pipeline (Dat)

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- Every window sits at block (0, 0) at the grid's one point. -/
theorem idx_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- The array the region leaves: the head of the pooled rows. -/
def out (c : Dev nD) : Buf (Elt Ideal) ((c : Thread nD τ).loc main_v88) :=
  Cert.Spec.headR (V c main_v85) (V c main_arg13) (V c main_v86) (V c main_arg15) (V c main_v87)

/-- The body's arithmetic read at an index, as the statement the body's own module proves. -/
abbrev PayloadReads : Prop :=
  ∀ (v0 : Vec Ideal S64x128 .f32) (v3 : Vec Ideal S128x64 .f32) (v6 : Vec Ideal S1x64 .f32) (v13 : Vec Ideal S64x2 .f32)
    (v16 : Vec Ideal S1x2 .f32) (p : Fin 64) (q : Fin 2),
    k4_pay1 (F := Ideal) v0 v3 v6 v13 v16 (ix2 p q)
      = Cert.Spec.headOut (fun j => Cert.Spec.headHidden (fun k => v0 (ix2 p k)) (fun k => v3 (ix2 k j)) (v6 (ix2 0 j)))
          (fun j => v13 (ix2 j q)) (v16 (ix2 0 q))

/-- A window at block (0, 0) holding its whole array reads the array itself. -/
theorem blk0 (c : Dev nD) (t : Fin cfg4.N) : (iblk4 V c 0 t : S64x128.Idx → EReal) = V c main_v85 := by
  obtain ⟨e00, e01, -⟩ := idx_facts t
  funext y
  show V c main_v85 (((cfg4.win 0).blk t).view.emb y) = _
  refine congrArg (V c main_v85) (funext fun a => Fin.ext ?_)
  match a with
  | ⟨0, _⟩ => show win4_0.index t (0 : Fin 2) * 64 + 1 * (y 0).val = (y 0).val; rw [e00]; omega
  | ⟨1, _⟩ => show win4_0.index t (1 : Fin 2) * 128 + 1 * (y 1).val = (y 1).val; rw [e01]; omega
theorem blk1 (c : Dev nD) (t : Fin cfg4.N) : (iblk4 V c 1 t : S128x64.Idx → EReal) = V c main_arg13 := by
  obtain ⟨-, -, e10, e11, -⟩ := idx_facts t
  funext y
  show V c main_arg13 (((cfg4.win 1).blk t).view.emb y) = _
  refine congrArg (V c main_arg13) (funext fun a => Fin.ext ?_)
  match a with
  | ⟨0, _⟩ => show win4_1.index t (0 : Fin 2) * 128 + 1 * (y 0).val = (y 0).val; rw [e10]; omega
  | ⟨1, _⟩ => show win4_1.index t (1 : Fin 2) * 64 + 1 * (y 1).val = (y 1).val; rw [e11]; omega
theorem blk2 (c : Dev nD) (t : Fin cfg4.N) : (iblk4 V c 2 t : S1x64.Idx → EReal) = V c main_v86 := by
  obtain ⟨-, -, -, -, e20, e21, -⟩ := idx_facts t
  funext y
  show V c main_v86 (((cfg4.win 2).blk t).view.emb y) = _
  refine congrArg (V c main_v86) (funext fun a => Fin.ext ?_)
  match a with
  | ⟨0, _⟩ => show win4_2.index t (0 : Fin 2) * 1 + 1 * (y 0).val = (y 0).val; rw [e20]; omega
  | ⟨1, _⟩ => show win4_2.index t (1 : Fin 2) * 64 + 1 * (y 1).val = (y 1).val; rw [e21]; omega
theorem blk3 (c : Dev nD) (t : Fin cfg4.N) : (iblk4 V c 3 t : S64x2.Idx → EReal) = V c main_arg15 := by
  obtain ⟨-, -, -, -, -, -, e30, e31, -⟩ := idx_facts t
  funext y
  show V c main_arg15 (((cfg4.win 3).blk t).view.emb y) = _
  refine congrArg (V c main_arg15) (funext fun a => Fin.ext ?_)
  match a with
  | ⟨0, _⟩ => show win4_3.index t (0 : Fin 2) * 64 + 1 * (y 0).val = (y 0).val; rw [e30]; omega
  | ⟨1, _⟩ => show win4_3.index t (1 : Fin 2) * 2 + 1 * (y 1).val = (y 1).val; rw [e31]; omega
theorem blk4 (c : Dev nD) (t : Fin cfg4.N) : (iblk4 V c 4 t : S1x2.Idx → EReal) = V c main_v87 := by
  obtain ⟨-, -, -, -, -, -, -, -, e40, e41, -⟩ := idx_facts t
  funext y
  show V c main_v87 (((cfg4.win 4).blk t).view.emb y) = _
  refine congrArg (V c main_v87) (funext fun a => Fin.ext ?_)
  match a with
  | ⟨0, _⟩ => show win4_4.index t (0 : Fin 2) * 1 + 1 * (y 0).val = (y 0).val; rw [e40]; omega
  | ⟨1, _⟩ => show win4_4.index t (1 : Fin 2) * 2 + 1 * (y 1).val = (y 1).val; rw [e41]; omega

set_option maxHeartbeats 2000000 in
/-- What the one point writes back is `out`, read through the whole-array block. -/
theorem flushed_eq (hpay : PayloadReads) (c : Dev nD) (t : Fin cfg4.N) :
    (dat4 V c).flushed 5 t = ((cfg4.win 5).blk t).view.read (Elt Ideal) (out V c) := by
  show (cfg4.win 5).cut (grid4.coords t) ((dat4 V c).after 5 t) = _
  rw [after4_5]
  unfold out4_5
  rw [View.canon_unit_zero hz]
  simp only [View.ld_unit_zero (S := S64x128) hz, View.ld_unit_zero (S := S128x64) hz, View.ld_unit_zero (S := S1x64) hz,
    View.ld_unit_zero (S := S64x2) hz, View.ld_unit_zero (S := S1x2) hz]
  obtain ⟨-, -, -, -, -, -, -, -, -, -, e50, e51⟩ := idx_facts t
  funext j
  have hj : k4_pay1 (F := Ideal) (iblk4 V c 0 t) (iblk4 V c 1 t) (iblk4 V c 2 t) (iblk4 V c 3 t) (iblk4 V c 4 t) j
      = Cert.Spec.headOut (fun i => Cert.Spec.headHidden (fun k => iblk4 V c 0 t (ix2 (j 0) k)) (fun k => iblk4 V c 1 t (ix2 k i)) (iblk4 V c 2 t (ix2 0 i)))
          (fun i => iblk4 V c 3 t (ix2 i (j 1))) (iblk4 V c 4 t (ix2 0 (j 1))) := by
    exact (congrArg (k4_pay1 (F := Ideal) (iblk4 V c 0 t) (iblk4 V c 1 t) (iblk4 V c 2 t) (iblk4 V c 3 t) (iblk4 V c 4 t)) (eq_ix2 (n0 := 64) (n1 := 2) j)).trans
      (hpay (iblk4 V c 0 t) (iblk4 V c 1 t) (iblk4 V c 2 t) (iblk4 V c 3 t) (iblk4 V c 4 t) (j 0) (j 1))
  refine hj.trans ?_
  have hemb : ((cfg4.win 5).blk t).view.emb j = j := by
    funext a; apply Fin.ext
    match a with
    | ⟨0, _⟩ => show win4_5.index t (0 : Fin 2) * 64 + 1 * (j 0).val = (j 0).val; rw [e50]; omega
    | ⟨1, _⟩ => show win4_5.index t (1 : Fin 2) * 2 + 1 * (j 1).val = (j 1).val; rw [e51]; omega
  show _ = out V c (((cfg4.win 5).blk t).view.emb j)
  rw [hemb, blk0 V c t, blk1 V c t, blk2 V c t, blk3 V c t, blk4 V c t]
  rfl

/-- An index of the array lies in the one block iff each coordinate lies in the block's range. -/
theorem mem_blk (t : Fin cfg4.N) (i : S64x2.Idx) :
    i ∈ ((cfg4.win 5).blk t).view.set ↔ ∀ a : Fin 2, win4_5.index t a * S64x2.size a ≤ (i a).val
      ∧ (i a).val < win4_5.index t a * S64x2.size a + S64x2.size a := by
  show i ∈ ((View.whole main_v88).slice (win4_5.rect t)).set ↔ _
  rw [View.set_slice_whole, Rect.mem_set_unit]
  exact Iff.rfl

/-- The one block covers the array. -/
theorem cover (i : S64x2.Idx) :
    ∃ t : Fin cfg4.N, (cfg4.win 5).flush t = true ∧ i ∈ ((cfg4.win 5).blk t).view.set := by
  have hi0 : (i 0).val < 64 := (i 0).isLt
  have hi1 : (i 1).val < 2 := (i 1).isLt
  obtain ⟨-, -, -, -, -, -, -, -, -, -, e50, e51⟩ := idx_facts t4_0
  refine ⟨t4_0, flush4_5 _, ?_⟩
  rw [mem_blk]
  intro a
  match a with
  | ⟨0, _⟩ =>
    show win4_5.index t4_0 (0 : Fin 2) * 64 ≤ (i 0).val ∧ (i 0).val < win4_5.index t4_0 (0 : Fin 2) * 64 + 64
    rw [e50]; omega
  | ⟨1, _⟩ =>
    show win4_5.index t4_0 (1 : Fin 2) * 2 ≤ (i 1).val ∧ (i 1).val < win4_5.index t4_0 (1 : Fin 2) * 2 + 2
    rw [e51]; omega

/-- The output array after the region is `out`. -/
theorem final (hpay : PayloadReads) (c : Dev nD) : (dat4 V c).arrAt 5 cfg4.N = out V c :=
  (dat4 V c).arrAt_eq_of_cover 5 (out V c) (fun t _ => flushed_eq V hpay c t) (cover)

end Cert.KernelIdeal.Region4

end
-- ==== Proof.RefRead.lean ====
/-
  The reference program's run and its stages read at an index (both generated) are brought in here, so that the
  modules stating what the reference computes have one place to import them from.
-/
import proofs.«169815_j46626164965918_1_alg».proof.Defs
import proofs.«169815_j46626164965918_1_alg».proof.Proof.Gen.ReferenceIdeal.Read
-- ==== Proof.KValue.lean ====
/-
  The idealized kernel's result is the reference's last stage, at the kernel's own arguments.

  Write x0 … x16 for the kernel's argument arrays. The reference program is a straight line of host operations, and
  each of its stages is a function of the arguments (the generated stage definitions). The kernel interleaves the
  SAME host operations — the embedding gather, the degrees and the edge normalisation, the gather–scale–scatter of
  the messages, the per-graph pooling — with five kernel regions. Going through the kernel's fold boundary by
  boundary, every buffer a later segment reads is identified with a reference stage at x0 … x16:

  * after the first stretch the gathered embedding rows, the edge list's two rows, the edge normalisation and the
    self-loop scale are the reference's (the same operations of the same arguments; the scale column is a reshape on
    one side and a broadcast on the other, equal entry by entry);
  * region 0 leaves the row-normalised embeddings times the first weights, which is the reference's first product;
  * the second stretch's messages are then the reference's, and region 1 leaves the reference's first layer;
  * region 2, the fourth stretch and region 3 repeat this for the second layer;
  * the fifth stretch pools the second layer per graph as the reference does, and region 4's head of the pooled rows
    is the reference's result.

  What each region's body computes at an index, and that the reference's matching stretch of stages is the same
  specification, are proved in their own modules and enter here as hypotheses.
-/
import proofs.«169815_j46626164965918_1_alg».proof.Proof.KFold
import proofs.«169815_j46626164965918_1_alg».proof.Proof.KReg0
import proofs.«169815_j46626164965918_1_alg».proof.Proof.KReg1
import proofs.«169815_j46626164965918_1_alg».proof.Proof.KReg2
import proofs.«169815_j46626164965918_1_alg».proof.Proof.KReg3
import proofs.«169815_j46626164965918_1_alg».proof.Proof.KReg4
import proofs.«169815_j46626164965918_1_alg».proof.Proof.RefRead
import Idealize.ShloMosaic.Lib.StableHlo.Run
import Idealize.ShloMosaic.Lib.Pipeline.Value

set_option maxRecDepth 16384

noncomputable section

namespace Cert.KernelIdeal.Result

open Cert.KernelIdeal Cert.KernelIdeal.Gen Cert.KernelIdeal.Fold
open Idealize.ShloMosaic Idealize.ShloMosaic.TcCoe Idealize.SL.Sem Idealize.ShloMosaic.ValueIdx Idealize.ShloMosaic.StableHlo
open Cert.ReferenceIdeal.Read (val_main_v1 val_main_v3 val_main_v13 val_main_v38 val_main_v60 val_main_v73 val_main_v74
  val_main_v75 val_main_v82 val_main_v107 val_main_v129 val_main_v142 val_main_v143 val_main_v144 val_main_v151
  val_main_v163 val_main_v172 idx_main_v75 idx_main_v144 val_main_v75_apply val_main_v144_apply)

variable (m : (ℓ : Loc nD τ sig) → Buf (Elt Ideal) ℓ) (ρ : Dev nD → PrngReg) (c : Dev nD)

/-! ## The arguments -/

abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)
abbrev x6 := m ((c : Thread nD τ).loc main_arg6)
abbrev x7 := m ((c : Thread nD τ).loc main_arg7)
abbrev x8 := m ((c : Thread nD τ).loc main_arg8)
abbrev x9 := m ((c : Thread nD τ).loc main_arg9)
abbrev x10 := m ((c : Thread nD τ).loc main_arg10)
abbrev x11 := m ((c : Thread nD τ).loc main_arg11)
abbrev x12 := m ((c : Thread nD τ).loc main_arg12)
abbrev x13 := m ((c : Thread nD τ).loc main_arg13)
abbrev x14 := m ((c : Thread nD τ).loc main_arg14)
abbrev x15 := m ((c : Thread nD τ).loc main_arg15)
abbrev x16 := m ((c : Thread nD τ).loc main_arg16)

/-! ## Reshapes and the scale column, read at an index -/

/-- A vector viewed as a one-row array: entry (0, k) of the row is entry k of the vector. -/
theorem row128 (x : (⟨1, ![128]⟩ : Shape).Idx → EReal) (h : (⟨1, ![128]⟩ : Shape).ShapeCasts ⟨2, ![1, 128]⟩) (k : Fin 128) :
    shapeCast (⟨2, ![1, 128]⟩ : Shape) x h (ix2 0 k) = x (ix1 k) :=
  shapeCast_apply x h (ix2 0 k) (ix1 k) (by
    rw [Shape.rowMajor_val_one, Shape.rowMajor_val_two]; show k.val = 0 * 128 + k.val; omega)
theorem row64 (x : (⟨1, ![64]⟩ : Shape).Idx → EReal) (h : (⟨1, ![64]⟩ : Shape).ShapeCasts ⟨2, ![1, 64]⟩) (k : Fin 64) :
    shapeCast (⟨2, ![1, 64]⟩ : Shape) x h (ix2 0 k) = x (ix1 k) :=
  shapeCast_apply x h (ix2 0 k) (ix1 k) (by
    rw [Shape.rowMajor_val_one, Shape.rowMajor_val_two]; show k.val = 0 * 64 + k.val; omega)
theorem row2 (x : (⟨1, ![2]⟩ : Shape).Idx → EReal) (h : (⟨1, ![2]⟩ : Shape).ShapeCasts ⟨2, ![1, 2]⟩) (k : Fin 2) :
    shapeCast (⟨2, ![1, 2]⟩ : Shape) x h (ix2 0 k) = x (ix1 k) :=
  shapeCast_apply x h (ix2 0 k) (ix1 k) (by
    rw [Shape.rowMajor_val_one, Shape.rowMajor_val_two]; show k.val = 0 * 2 + k.val; omega)
/-- A vector viewed as a one-column array: entry (r, 0) of the column is entry r of the vector. -/
theorem col100000 (x : (⟨1, ![100000]⟩ : Shape).Idx → EReal) (h : (⟨1, ![100000]⟩ : Shape).ShapeCasts ⟨2, ![100000, 1]⟩) (r : Fin 100000) :
    shapeCast (⟨2, ![100000, 1]⟩ : Shape) x h (ix2 r 0) = x (ix1 r) :=
  shapeCast_apply x h (ix2 r 0) (ix1 r) (by
    rw [Shape.rowMajor_val_one, Shape.rowMajor_val_two]; show r.val = r.val * 1 + 0; omega)

/-! ## After the first stretch -/

/-- The gathered embedding rows are the reference's. -/
theorem v13_eq : V1 m ρ c main_v13 = val_main_v13 (F := Ideal) (x0 m c) (x4 m c) := by
  show StableHlo.after hostOps0 (W0 m ρ c) (Proc.devRef .tc main_v13) = _
  after_results_simp <;> rfl
/-- The edge list's two rows, -/
theorem v1_eq : W1 m ρ c (Proc.devRef .tc main_v1) = val_main_v1 (F := Ideal) (x1 m c) := by
  show StableHlo.after hostOps0 (W0 m ρ c) (Proc.devRef .tc main_v1) = _
  after_results_simp <;> rfl
theorem v3_eq : W1 m ρ c (Proc.devRef .tc main_v3) = val_main_v3 (F := Ideal) (x1 m c) := by
  show StableHlo.after hostOps0 (W0 m ρ c) (Proc.devRef .tc main_v3) = _
  after_results_simp <;> rfl
/-- the edge normalisation (the reference computes it once per layer, from the same arguments), -/
theorem v35_eq : W1 m ρ c (Proc.devRef .tc main_v35) = val_main_v60 (F := Ideal) (x1 m c) (x2 m c) := by
  show StableHlo.after hostOps0 (W0 m ρ c) (Proc.devRef .tc main_v35) = _
  after_results_simp <;> rfl
theorem v35_eq' : W1 m ρ c (Proc.devRef .tc main_v35) = val_main_v129 (F := Ideal) (x1 m c) (x2 m c) := by
  show StableHlo.after hostOps0 (W0 m ρ c) (Proc.devRef .tc main_v35) = _
  after_results_simp <;> rfl
/-- and the squared reciprocal root of the degrees, before it is laid out as a column. -/
theorem v36_eq : W1 m ρ c (Proc.devRef .tc main_v36) = val_main_v74 (F := Ideal) (x1 m c) (x2 m c) := by
  show StableHlo.after hostOps0 (W0 m ρ c) (Proc.devRef .tc main_v36) = _
  after_results_simp <;> rfl
theorem v36_eq' : W1 m ρ c (Proc.devRef .tc main_v36) = val_main_v143 (F := Ideal) (x1 m c) (x2 m c) := by
  show StableHlo.after hostOps0 (W0 m ρ c) (Proc.devRef .tc main_v36) = _
  after_results_simp <;> rfl

/-- The self-loop scale column: the kernel reshapes the vector, the reference broadcasts it along a new unit axis;
    entry (r, 0) is entry r of the vector either way. -/
theorem v37_col (r : Fin 100000) :
    W1 m ρ c (Proc.devRef .tc main_v37) (ix2 r 0) = val_main_v75 (F := Ideal) (x1 m c) (x2 m c) (ix2 r 0) := by
  have e : W1 m ρ c (Proc.devRef .tc main_v37)
      = shapeCast S100000x1 (W1 m ρ c (Proc.devRef .tc main_v36)) shapeCasts_S100000_S100000x1 := by
    show StableHlo.after hostOps0 (W0 m ρ c) (Proc.devRef .tc main_v37) = _
    after_results_simp <;> rfl
  rw [e, v36_eq, val_main_v75_apply]
  refine (col100000 _ _ r).trans (congrArg _ (funext fun a => Fin.ext ?_))
  match a with
  | ⟨0, _⟩ => rfl
theorem v37_col' (r : Fin 100000) :
    W1 m ρ c (Proc.devRef .tc main_v37) (ix2 r 0) = val_main_v144 (F := Ideal) (x1 m c) (x2 m c) (ix2 r 0) := by
  have e : W1 m ρ c (Proc.devRef .tc main_v37)
      = shapeCast S100000x1 (W1 m ρ c (Proc.devRef .tc main_v36)) shapeCasts_S100000_S100000x1 := by
    show StableHlo.after hostOps0 (W0 m ρ c) (Proc.devRef .tc main_v37) = _
    after_results_simp <;> rfl
  rw [e, v36_eq', val_main_v144_apply]
  refine (col100000 _ _ r).trans (congrArg _ (funext fun a => Fin.ext ?_))
  match a with
  | ⟨0, _⟩ => rfl

/-- The first layer's scale and shift as one-row arrays. -/
theorem v38_row (k : Fin 128) : V1 m ρ c main_v38 (ix2 0 k) = x5 m c (ix1 k) := by
  have e : V1 m ρ c main_v38 = shapeCast S1x128 (x5 m c) shapeCasts_S128_S1x128 := by
    show StableHlo.after hostOps0 (W0 m ρ c) (Proc.devRef .tc main_v38) = _
    after_results_simp <;> rfl
  rw [e]; exact row128 _ _ k
theorem v39_row (k : Fin 128) : V1 m ρ c main_v39 (ix2 0 k) = x6 m c (ix1 k) := by
  have e : V1 m ρ c main_v39 = shapeCast S1x128 (x6 m c) shapeCasts_S128_S1x128 := by
    show StableHlo.after hostOps0 (W0 m ρ c) (Proc.devRef .tc main_v39) = _
    after_results_simp <;> rfl
  rw [e]; exact row128 _ _ k

/-! ## The chain through the regions -/

section Chain

/-- The reference's first layer-norm-and-multiply stretch is the specification's (proved with the reference's stages). -/
abbrev HL1 : Prop :=
  ∀ a0 a4 a5 a6 a7, val_main_v38 (F := Ideal) a0 a4 a5 a6 a7 = Cert.Spec.lnmm (val_main_v13 (F := Ideal) a0 a4) a5 a6 a7
/-- Its first combine step is the specification's. -/
abbrev HC1 : Prop :=
  ∀ a0 a1 a2 a4 a5 a6 a7 a8, val_main_v82 (F := Ideal) a0 a1 a2 a4 a5 a6 a7 a8
    = Cert.Spec.comb (val_main_v73 (F := Ideal) a0 a1 a2 a4 a5 a6 a7) (val_main_v38 (F := Ideal) a0 a4 a5 a6 a7)
        (val_main_v75 (F := Ideal) a1 a2) a8
/-- Its second layer-norm-and-multiply stretch is the specification's. -/
abbrev HL2 : Prop :=
  ∀ a0 a1 a2 a4 a5 a6 a7 a8 a9 a10 a11, val_main_v107 (F := Ideal) a0 a1 a2 a4 a5 a6 a7 a8 a9 a10 a11
    = Cert.Spec.lnmm (val_main_v82 (F := Ideal) a0 a1 a2 a4 a5 a6 a7 a8) a9 a10 a11
/-- Its second combine step is the specification's. -/
abbrev HC2 : Prop :=
  ∀ a0 a1 a2 a4 a5 a6 a7 a8 a9 a10 a11 a12, val_main_v151 (F := Ideal) a0 a1 a2 a4 a5 a6 a7 a8 a9 a10 a11 a12
    = Cert.Spec.comb (val_main_v142 (F := Ideal) a0 a1 a2 a4 a5 a6 a7 a8 a9 a10 a11)
        (val_main_v107 (F := Ideal) a0 a1 a2 a4 a5 a6 a7 a8 a9 a10 a11) (val_main_v144 (F := Ideal) a1 a2) a12
/-- Its head is the specification's. -/
abbrev HH : Prop :=
  ∀ a0 a1 a2 a3 a4 a5 a6 a7 a8 a9 a10 a11 a12 a13 a14 a15 a16,
    val_main_v172 (F := Ideal) a0 a1 a2 a3 a4 a5 a6 a7 a8 a9 a10 a11 a12 a13 a14 a15 a16
      = Cert.Spec.head (val_main_v163 (F := Ideal) a0 a1 a2 a3 a4 a5 a6 a7 a8 a9 a10 a11 a12) a13 a14 a15 a16

/-- Region 0 leaves the reference's first product. -/
theorem E0 (hp0 : Region0.PayloadReads) (hL1 : HL1) : W2 m ρ c (Proc.devRef .tc main_v40) = val_main_v38 (F := Ideal) (x0 m c) (x4 m c) (x5 m c) (x6 m c) (x7 m c) := by
  have h1 : W2 m ρ c (Proc.devRef .tc main_v40) = Region0.out (V1 m ρ) c :=
    (W2_arr m ρ c 4).trans (Region0.final (V1 m ρ) hp0 c)
  have h2 : Region0.out (V1 m ρ) c = Cert.Spec.lnmm (V1 m ρ c main_v13) (x5 m c) (x6 m c) (V1 m ρ c main_arg7) :=
    Cert.Spec.lnmmR_eq _ _ _ _ _ _ (v38_row m ρ c) (v39_row m ρ c)
  rw [h1, h2, v13_eq, show V1 m ρ c main_arg7 = x7 m c from W1_arg7 m ρ c]
  exact (hL1 _ _ _ _ _).symm

/-- The second stretch's messages are the reference's: the same gather, scaling and scatter of the same product. -/
theorem v53_eq (hp0 : Region0.PayloadReads) (hL1 : HL1) : V3 m ρ c main_v53 = val_main_v73 (F := Ideal) (x0 m c) (x1 m c) (x2 m c) (x4 m c) (x5 m c) (x6 m c) (x7 m c) := by
  show StableHlo.after hostOps1 (W2 m ρ c) (Proc.devRef .tc main_v53) = _
  after_results_simp
  rw [E0 m ρ c hp0 hL1, (from2 m ρ c main_v1 (by decide)).trans (v1_eq m ρ c),
    (from2 m ρ c main_v3 (by decide)).trans (v3_eq m ρ c), (from2 m ρ c main_v35 (by decide)).trans (v35_eq m ρ c)]
  rfl
theorem v54_row (k : Fin 128) : V3 m ρ c main_v54 (ix2 0 k) = x8 m c (ix1 k) := by
  have e : V3 m ρ c main_v54 = shapeCast S1x128 (W2 m ρ c (Proc.devRef .tc main_arg8)) shapeCasts_S128_S1x128 := by
    show StableHlo.after hostOps1 (W2 m ρ c) (Proc.devRef .tc main_v54) = _
    after_results_simp <;> rfl
  rw [e, W2_arg8]; exact row128 _ _ k

/-- Region 1 leaves the reference's first layer. -/
theorem E2 (hp0 : Region0.PayloadReads) (hp1 : Region1.PayloadReads) (hL1 : HL1) (hC1 : HC1) : W4 m ρ c (Proc.devRef .tc main_v55) = val_main_v82 (F := Ideal) (x0 m c) (x1 m c) (x2 m c) (x4 m c) (x5 m c) (x6 m c) (x7 m c) (x8 m c) := by
  have h1 : W4 m ρ c (Proc.devRef .tc main_v55) = Region1.out (V3 m ρ) c :=
    (W4_arr m ρ c 4).trans (Region1.final (V3 m ρ) hp1 c)
  have h2 : Region1.out (V3 m ρ) c
      = Cert.Spec.comb (V3 m ρ c main_v53) (V3 m ρ c main_v40) (V3 m ρ c main_v37) (x8 m c) :=
    Cert.Spec.combR_eq _ _ _ _ _ (v54_row m ρ c)
  have h3 : V3 m ρ c main_v40 = val_main_v38 (F := Ideal) (x0 m c) (x4 m c) (x5 m c) (x6 m c) (x7 m c) :=
    (W3_of m ρ c main_v40 (by decide)).trans (E0 m ρ c hp0 hL1)
  have h4 : ∀ r : Fin 100000, V3 m ρ c main_v37 (ix2 r 0) = val_main_v75 (F := Ideal) (x1 m c) (x2 m c) (ix2 r 0) := fun r =>
    (congrFun (from3 m ρ c main_v37 (by decide) (by decide)) (ix2 r 0)).trans (v37_col m ρ c r)
  rw [h1, h2, v53_eq m ρ c hp0 hL1, h3, Cert.Spec.comb_scale _ _ _ _ _ h4]
  exact (hC1 _ _ _ _ _ _ _ _).symm

/-- The second layer's scale and shift as one-row arrays. -/
theorem v56_row (k : Fin 128) : V5 m ρ c main_v56 (ix2 0 k) = x9 m c (ix1 k) := by
  have e : V5 m ρ c main_v56 = shapeCast S1x128 (W4 m ρ c (Proc.devRef .tc main_arg9)) shapeCasts_S128_S1x128 := by
    show StableHlo.after hostOps2 (W4 m ρ c) (Proc.devRef .tc main_v56) = _
    after_results_simp <;> rfl
  rw [e, W4_arg9]; exact row128 _ _ k
theorem v57_row (k : Fin 128) : V5 m ρ c main_v57 (ix2 0 k) = x10 m c (ix1 k) := by
  have e : V5 m ρ c main_v57 = shapeCast S1x128 (W4 m ρ c (Proc.devRef .tc main_arg10)) shapeCasts_S128_S1x128 := by
    show StableHlo.after hostOps2 (W4 m ρ c) (Proc.devRef .tc main_v57) = _
    after_results_simp <;> rfl
  rw [e, W4_arg10]; exact row128 _ _ k

/-- Region 2 leaves the reference's second product. -/
theorem E3 (hp0 : Region0.PayloadReads) (hp1 : Region1.PayloadReads) (hp2 : Region2.PayloadReads) (hL1 : HL1) (hC1 : HC1) (hL2 : HL2) : W6 m ρ c (Proc.devRef .tc main_v58) = val_main_v107 (F := Ideal) (x0 m c) (x1 m c) (x2 m c) (x4 m c) (x5 m c) (x6 m c) (x7 m c) (x8 m c) (x9 m c) (x10 m c) (x11 m c) := by
  have h1 : W6 m ρ c (Proc.devRef .tc main_v58) = Region2.out (V5 m ρ) c :=
    (W6_arr m ρ c 4).trans (Region2.final (V5 m ρ) hp2 c)
  have h2 : Region2.out (V5 m ρ) c = Cert.Spec.lnmm (V5 m ρ c main_v55) (x9 m c) (x10 m c) (V5 m ρ c main_arg11) :=
    Cert.Spec.lnmmR_eq _ _ _ _ _ _ (v56_row m ρ c) (v57_row m ρ c)
  have h3 : V5 m ρ c main_v55 = val_main_v82 (F := Ideal) (x0 m c) (x1 m c) (x2 m c) (x4 m c) (x5 m c) (x6 m c) (x7 m c) (x8 m c) :=
    (W5_of m ρ c main_v55 (by decide)).trans (E2 m ρ c hp0 hp1 hL1 hC1)
  rw [h1, h2, h3, show V5 m ρ c main_arg11 = x11 m c from W5_arg11 m ρ c]
  exact (hL2 _ _ _ _ _ _ _ _ _ _ _).symm

/-- The fourth stretch's messages are the reference's. -/
theorem v71_eq (hp0 : Region0.PayloadReads) (hp1 : Region1.PayloadReads) (hp2 : Region2.PayloadReads) (hL1 : HL1) (hC1 : HC1) (hL2 : HL2) : V7 m ρ c main_v71 = val_main_v142 (F := Ideal) (x0 m c) (x1 m c) (x2 m c) (x4 m c) (x5 m c) (x6 m c) (x7 m c) (x8 m c) (x9 m c) (x10 m c) (x11 m c) := by
  show StableHlo.after hostOps3 (W6 m ρ c) (Proc.devRef .tc main_v71) = _
  after_results_simp
  rw [E3 m ρ c hp0 hp1 hp2 hL1 hC1 hL2,
    (from6 m ρ c main_v1 (by decide) (by decide) (by decide) (by decide) (by decide)).trans (v1_eq m ρ c),
    (from6 m ρ c main_v3 (by decide) (by decide) (by decide) (by decide) (by decide)).trans (v3_eq m ρ c),
    (from6 m ρ c main_v35 (by decide) (by decide) (by decide) (by decide) (by decide)).trans (v35_eq' m ρ c)]
  rfl
theorem v72_row (k : Fin 128) : V7 m ρ c main_v72 (ix2 0 k) = x12 m c (ix1 k) := by
  have e : V7 m ρ c main_v72 = shapeCast S1x128 (W6 m ρ c (Proc.devRef .tc main_arg12)) shapeCasts_S128_S1x128 := by
    show StableHlo.after hostOps3 (W6 m ρ c) (Proc.devRef .tc main_v72) = _
    after_results_simp <;> rfl
  rw [e, W6_arg12]; exact row128 _ _ k

/-- Region 3 leaves the reference's second layer. -/
theorem E4 (hp0 : Region0.PayloadReads) (hp1 : Region1.PayloadReads) (hp2 : Region2.PayloadReads) (hp3 : Region3.PayloadReads) (hL1 : HL1) (hC1 : HC1) (hL2 : HL2) (hC2 : HC2) : W8 m ρ c (Proc.devRef .tc main_v73) = val_main_v151 (F := Ideal) (x0 m c) (x1 m c) (x2 m c) (x4 m c) (x5 m c) (x6 m c) (x7 m c) (x8 m c) (x9 m c) (x10 m c) (x11 m c) (x12 m c) := by
  have h1 : W8 m ρ c (Proc.devRef .tc main_v73) = Region3.out (V7 m ρ) c :=
    (W8_arr m ρ c 4).trans (Region3.final (V7 m ρ) hp3 c)
  have h2 : Region3.out (V7 m ρ) c
      = Cert.Spec.comb (V7 m ρ c main_v71) (V7 m ρ c main_v58) (V7 m ρ c main_v37) (x12 m c) :=
    Cert.Spec.combR_eq _ _ _ _ _ (v72_row m ρ c)
  have h3 : V7 m ρ c main_v58 = val_main_v107 (F := Ideal) (x0 m c) (x1 m c) (x2 m c) (x4 m c) (x5 m c) (x6 m c) (x7 m c) (x8 m c) (x9 m c) (x10 m c) (x11 m c) :=
    (W7_of m ρ c main_v58 (by decide)).trans (E3 m ρ c hp0 hp1 hp2 hL1 hC1 hL2)
  -- the scale column is an INPUT window of region 1: that region leaves it as entered; no later stretch writes it and
  -- it is no window of region 2
  have hin : W4 m ρ c (Proc.devRef .tc main_v37) = W3 m ρ c (Proc.devRef .tc main_v37) :=
    (W4_arr m ρ c 2).trans (((dat1 (V3 m ρ) c).arrAt_in 2 rfl _).trans (A_eq1 (V3 m ρ) c 2))
  have hv37 : W7 m ρ c (Proc.devRef .tc main_v37) = W1 m ρ c (Proc.devRef .tc main_v37) :=
    (W7_of m ρ c main_v37 (by decide)).trans <| (W6_of_ne m ρ c main_v37 (by decide)).trans <|
      (W5_of m ρ c main_v37 (by decide)).trans <| hin.trans (from3 m ρ c main_v37 (by decide) (by decide))
  have h4 : ∀ r : Fin 100000, V7 m ρ c main_v37 (ix2 r 0) = val_main_v144 (F := Ideal) (x1 m c) (x2 m c) (ix2 r 0) := fun r =>
    (congrFun hv37 (ix2 r 0)).trans (v37_col' m ρ c r)
  rw [h1, h2, v71_eq m ρ c hp0 hp1 hp2 hL1 hC1 hL2, h3, Cert.Spec.comb_scale _ _ _ _ _ h4]
  exact (hC2 _ _ _ _ _ _ _ _ _ _ _ _).symm

/-- The fifth stretch pools the second layer per graph as the reference does. -/
theorem v85_eq (hp0 : Region0.PayloadReads) (hp1 : Region1.PayloadReads) (hp2 : Region2.PayloadReads) (hp3 : Region3.PayloadReads) (hL1 : HL1) (hC1 : HC1) (hL2 : HL2) (hC2 : HC2) : V9 m ρ c main_v85 = val_main_v163 (F := Ideal) (x0 m c) (x1 m c) (x2 m c) (x3 m c) (x4 m c) (x5 m c) (x6 m c) (x7 m c) (x8 m c) (x9 m c) (x10 m c) (x11 m c) (x12 m c) := by
  show StableHlo.after hostOps4 (W8 m ρ c) (Proc.devRef .tc main_v85) = _
  after_results_simp
  rw [E4 m ρ c hp0 hp1 hp2 hp3 hL1 hC1 hL2 hC2, W8_arg3]
  rfl
theorem v86_row (k : Fin 64) : V9 m ρ c main_v86 (ix2 0 k) = x14 m c (ix1 k) := by
  have e : V9 m ρ c main_v86 = shapeCast S1x64 (W8 m ρ c (Proc.devRef .tc main_arg14)) shapeCasts_S64_S1x64 := by
    show StableHlo.after hostOps4 (W8 m ρ c) (Proc.devRef .tc main_v86) = _
    after_results_simp <;> rfl
  rw [e, W8_arg14]; exact row64 _ _ k
theorem v87_row (k : Fin 2) : V9 m ρ c main_v87 (ix2 0 k) = x16 m c (ix1 k) := by
  have e : V9 m ρ c main_v87 = shapeCast S1x2 (W8 m ρ c (Proc.devRef .tc main_arg16)) shapeCasts_S2_S1x2 := by
    show StableHlo.after hostOps4 (W8 m ρ c) (Proc.devRef .tc main_v87) = _
    after_results_simp <;> rfl
  rw [e, W8_arg16]; exact row2 _ _ k

/-- Region 4 leaves the reference's result: the last boundary's contents at the result buffer are the reference's
    last stage of the kernel's own arguments. -/
theorem result_eq (hp0 : Region0.PayloadReads) (hp1 : Region1.PayloadReads) (hp2 : Region2.PayloadReads) (hp3 : Region3.PayloadReads) (hp4 : Region4.PayloadReads) (hL1 : HL1) (hC1 : HC1) (hL2 : HL2) (hC2 : HC2) (hH : HH) : W10 m ρ c (Proc.devRef .tc main_v88) = val_main_v172 (F := Ideal) (x0 m c) (x1 m c) (x2 m c) (x3 m c) (x4 m c) (x5 m c) (x6 m c) (x7 m c) (x8 m c) (x9 m c) (x10 m c) (x11 m c) (x12 m c) (x13 m c) (x14 m c) (x15 m c) (x16 m c) := by
  have h1 : W10 m ρ c (Proc.devRef .tc main_v88) = Region4.out (V9 m ρ) c :=
    (W10_arr m ρ c 5).trans (Region4.final (V9 m ρ) hp4 c)
  have h2 : Region4.out (V9 m ρ) c
      = Cert.Spec.head (V9 m ρ c main_v85) (V9 m ρ c main_arg13) (x14 m c) (V9 m ρ c main_arg15) (x16 m c) :=
    Cert.Spec.headR_eq _ _ _ _ _ _ _ (v86_row m ρ c) (v87_row m ρ c)
  rw [h1, h2, v85_eq m ρ c hp0 hp1 hp2 hp3 hL1 hC1 hL2 hC2, show V9 m ρ c main_arg13 = x13 m c from W9_arg13 m ρ c,
    show V9 m ρ c main_arg15 = x15 m c from W9_arg15 m ρ c]
  exact (hH _ _ _ _ _ _ _ _ _ _ _ _ _ _ _ _ _).symm

end Chain

end Cert.KernelIdeal.Result

end
-- ==== Proof.KLnmm.lean ====
/-
  The layer-norm + matrix-product body, read at one entry.

  The body takes a [2000, 128] block of rows, a [1, 128] scale, a [1, 128] shift and the [128, 128] weights. It sums
  each row over its 128 lanes and divides by 128 (the row's mean), subtracts the mean, squares, sums and divides
  again (the row's variance), adds the small constant, takes the reciprocal square root, multiplies the deviations
  by it, scales and shifts per column, and multiplies the result by the weights into a zero accumulator. Read at
  entry (p, q) of its result this is the specification's `lnmmElt` of row p of the block, the scale, the shift, and
  column q of the weights: the lane sums are the specification's sums over `Fin 128` as they stand (a lane sum has no
  initial value), the format changes on the way into the matrix unit are the identity on extended reals, and the
  zero accumulator adds nothing.
-/
import proofs.«169815_j46626164965918_1_alg».proof.Proof.Spec
import proofs.«169815_j46626164965918_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The layout steps between a row sum and the block -/

/-- A vector of 2000 entries viewed as a [2000, 1] column reads, at (p, 0), its entry p. -/
theorem col_cast_apply {α : Type} (x : S2000.Idx → α) (h : S2000.ShapeCasts S2000x1) (p : Fin 2000) (u : Fin 1) :
    shapeCast S2000x1 x h (ix2 p u) = x (ix1 p) :=
  shapeCast_apply x h _ _ (by
    have hu : u.val = 0 := by omega
    rw [Shape.rowMajor_val_one, Shape.rowMajor_val_two]
    show p.val = p.val * 1 + u.val
    omega)

/-- A [2000, 1] column broadcast along the 128 lanes reads, at (p, q), the column's entry p. -/
theorem col_bcast_apply {α : Type} (x : S2000x1.Idx → α) (h : S2000x1.Broadcasts S2000x128) (p : Fin 2000) (q : Fin 128) :
    broadcastTo S2000x128 x h (ix2 p q) = x (ix2 p (0 : Fin 1)) := by
  refine broadcastTo_apply x h (ix2 p q) (ix2 p (0 : Fin 1)) fun ax => ?_
  match ax with
  | ⟨0, _⟩ =>
    show p.val = if (2000 : Nat) = 1 then 0 else p.val
    rw [if_neg (by decide)]
  | ⟨1, _⟩ =>
    show 0 = if (1 : Nat) = 1 then 0 else q.val
    rw [if_pos rfl]

/-- A lane sum of a [2000, 128] block reads, at row p, the sum of the row's 128 entries: no initial value. -/
theorem row_sum_apply (x : FVec Ideal S2000x128 .f32) (h : S2000x128.Reduces [1] S2000) (hφ : FKind.Formats .f32)
    (hacc : (0x00000000#32 : BitVec 32) = 0x00000000#32) (p : Fin 2000) :
    multiReduction (F := Ideal) .add [1] S2000 x 0x00000000#32 h hφ hacc (ix1 p) = ∑ k : Fin 128, x (ix2 p k) := by
  refine (Ideal.multiReduction_add_single x 0x00000000#32 h hφ hacc (ix1 p)).trans ?_
  refine Finset.sum_congr rfl fun k _ => congrArg x ?_
  funext a
  refine Fin.ext ?_
  match a with
  | ⟨0, _⟩ => rfl
  | ⟨1, _⟩ => rfl

/-- A reciprocal square root of a vector reads the entry's reciprocal square root. -/
theorem rsqrt_apply {s : Shape} {φ : FTy} (x : FVec Ideal s φ) (i : s.Idx) : rsqrt x i = Ideal.rsqrt (x i) := rfl

/-! ## The product's operand indices -/

theorem lhs_coord0 (i : S2000x128.Idx) (c : dot_S2000x128_S128x128_S2000x128_1_0_0_1_n_n.contr.Idx) : (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem lhs_coord1 (i : S2000x128.Idx) (c : dot_S2000x128_S128x128_S2000x128_1_0_0_1_n_n.contr.Idx) : (dot_S2000x128_S128x128_S2000x128_1_0_0_1_n_n.lhsIdx i c 1).val = (c ⟨0, by decide⟩).val :=
  dot_S2000x128_S128x128_S2000x128_1_0_0_1_n_n.lhsIdx_val_of_single rfl i c
theorem rhs_coord0 (i : S2000x128.Idx) (c : dot_S2000x128_S128x128_S2000x128_1_0_0_1_n_n.contr.Idx) : (dot_S2000x128_S128x128_S2000x128_1_0_0_1_n_n.rhsIdx i c 0).val = (c ⟨0, by decide⟩).val :=
  dot_S2000x128_S128x128_S2000x128_1_0_0_1_n_n.rhsIdx_val_of_single rfl i c
theorem rhs_coord1 (i : S2000x128.Idx) (c : dot_S2000x128_S128x128_S2000x128_1_0_0_1_n_n.contr.Idx) : (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-! ## The body at an entry -/

/-- Entry (p, q) of what the first layer's body stores: row p of the block normalised, scaled and shifted, against
    column q of the weights. -/
theorem lnmm_payload0 (v0 : Vec Ideal S2000x128 .f32) (v20 v24 : Vec Ideal S1x128 .f32) (v29 : Vec Ideal S128x128 .f32)
    (p : Fin 2000) (q : Fin 128) :
    k0_pay1 (F := Ideal) v0 v20 v24 v29 (ix2 p q)
      = Cert.Spec.lnmmElt (fun k => v0 (ix2 p k)) (fun k => v20 (ix2 0 k)) (fun k => v24 (ix2 0 k)) (fun k => v29 (ix2 k q)) := by
  unfold k0_pay1
  simp only [shapeCast_self]
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  unfold Cert.Spec.lnmmElt
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_coord0 _ _
    | ⟨1, _⟩ => exact (lhs_coord1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_coord0 _ _).trans hk
    | ⟨1, _⟩ => exact rhs_coord1 _ _)
  rw [el, er, truncf_apply, truncf_apply]
  refine congrArg (· * v29 (ix2 k q)) ?_
  simp only [addf_apply, mulf_apply, subf_apply, divf_apply, rsqrt_apply, broadcast_apply, col_bcast_apply, col_cast_apply,
    broadcastTo_1b_ab_apply]
  rw [row_sum_apply v0, row_sum_apply]
  simp only [mulf_apply, subf_apply, divf_apply, broadcast_apply, col_bcast_apply, col_cast_apply]
  rw [row_sum_apply v0]
  rfl

/-- The second layer's body is the same arithmetic on its own block, scale, shift and weights. -/
theorem lnmm_payload2 (v0 : Vec Ideal S2000x128 .f32) (v20 v24 : Vec Ideal S1x128 .f32) (v29 : Vec Ideal S128x128 .f32)
    (p : Fin 2000) (q : Fin 128) :
    k2_pay1 (F := Ideal) v0 v20 v24 v29 (ix2 p q)
      = Cert.Spec.lnmmElt (fun k => v0 (ix2 p k)) (fun k => v20 (ix2 0 k)) (fun k => v24 (ix2 0 k)) (fun k => v29 (ix2 k q)) := by
  have e : k2_pay1 (F := Ideal) v0 v20 v24 v29 = k0_pay1 (F := Ideal) v0 v20 v24 v29 := rfl
  rw [e]
  exact lnmm_payload0 v0 v20 v24 v29 p q

end Cert.KernelIdeal.Body

end
-- ==== Proof.KComb.lean ====
/-
  The combine step's body, read at one entry.

  The body adds to the gathered messages the node's own entry times its self-loop scale (a column, read at the entry's
  row), then the bias (a row, read at the entry's column), and clips below at zero. Every operation is entry by entry
  once the column and the row are read at the right coordinate, so the entry is the specification's `combElt` of four
  numbers, by unfolding alone.
-/
import proofs.«169815_j46626164965918_1_alg».proof.Proof.Spec
import proofs.«169815_j46626164965918_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal

noncomputable section

namespace Cert.KernelIdeal.Body

open Cert.KernelIdeal Cert.KernelIdeal.Gen Idealize.ShloMosaic Idealize.ShloMosaic.ValueIdx

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Layer one's combine body at entry `(p, q)`: messages plus own entry times the row's scale, plus the column's bias,
    clipped at zero. -/
theorem comb_payload1 (v0 v2 : Vec Ideal S2000x128 .f32) (v4 : Vec Ideal S2000x1 .f32) (v9 : Vec Ideal S1x128 .f32)
    (p : Fin 2000) (q : Fin 128) :
    k1_pay1 (F := Ideal) v0 v2 v4 v9 (ix2 p q)
      = Cert.Spec.combElt (v0 (ix2 p q)) (v2 (ix2 p q)) (v4 (ix2 p 0)) (v9 (ix2 0 q)) := by
  unfold k1_pay1
  simp only [shapeCast_self]
  rw [maximumf_apply, addf_apply, addf_apply, mulf_apply, broadcast_apply,
    broadcastTo_1b_ab_apply, broadcastTo_a1_ab_apply]
  rfl

/-- Layer two's combine body at entry `(p, q)`: the same arithmetic. -/
theorem comb_payload3 (v0 v2 : Vec Ideal S2000x128 .f32) (v4 : Vec Ideal S2000x1 .f32) (v9 : Vec Ideal S1x128 .f32)
    (p : Fin 2000) (q : Fin 128) :
    k3_pay1 (F := Ideal) v0 v2 v4 v9 (ix2 p q)
      = Cert.Spec.combElt (v0 (ix2 p q)) (v2 (ix2 p q)) (v4 (ix2 p 0)) (v9 (ix2 0 q)) := by
  unfold k3_pay1
  simp only [shapeCast_self]
  rw [maximumf_apply, addf_apply, addf_apply, mulf_apply, broadcast_apply,
    broadcastTo_1b_ab_apply, broadcastTo_a1_ab_apply]
  rfl

end Cert.KernelIdeal.Body

end
-- ==== Proof.KHead.lean ====
/-
  The head's body, read at one entry.

  The body multiplies the pooled rows by the first weights into a zero accumulator, adds the first bias (a row) down
  the columns, clips at zero, multiplies the result by the second weights into a zero accumulator and adds the second
  bias. At the ideal values the narrowing of a product's operands is the identity, a product into zero at an entry is
  the sum over the contracted axis of row entry times column entry, and everything else is entry by entry; so the
  entry is the specification's `headOut` of its `headHidden`s.
-/
import proofs.«169815_j46626164965918_1_alg».proof.Proof.Spec
import proofs.«169815_j46626164965918_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal
import Idealize.ShloMosaic.PureOps.Ideal.Laws

noncomputable section

namespace Cert.KernelIdeal.Body

open Cert.KernelIdeal Cert.KernelIdeal.Gen Idealize.ShloMosaic Idealize.ShloMosaic.ValueIdx

/-- The first product, pooled rows [64, 128] by weights [128, 64]: its left operand is read at the entry's row and the contracted coordinate. -/
theorem dotHidden_lhsIdx (p : Fin 64) (c : Fin 64) (k : Fin 128) :
    dot_S64x128_S128x64_S64x64_1_0_0_1_n_n.lhsIdx (ix2 p c) ((contrEquiv1 dot_S64x128_S128x64_S64x64_1_0_0_1_n_n 128 rfl rfl).symm k) = ix2 p k := by
  have hk := contrEquiv1_symm_val dot_S64x128_S128x64_S64x64_1_0_0_1_n_n 128 rfl rfl k
  funext a
  refine Fin.ext ?_
  match a with
  | ⟨0, _⟩ =>
    show (dot_S64x128_S128x64_S64x64_1_0_0_1_n_n.lhsIdx (ix2 p c) ((contrEquiv1 dot_S64x128_S128x64_S64x64_1_0_0_1_n_n 128 rfl rfl).symm k) 0).val = p.val
    unfold DotDims.lhsIdx
    rw [dif_neg (show ¬(0 : Fin S64x128.rank) ∈ dot_S64x128_S128x64_S64x64_1_0_0_1_n_n.lhsBatch by decide),
      dif_pos (show (0 : Fin S64x128.rank) ∈ dot_S64x128_S128x64_S64x64_1_0_0_1_n_n.lhsNonContracting by decide)]
    rfl
  | ⟨1, _⟩ => exact (dot_S64x128_S128x64_S64x64_1_0_0_1_n_n.lhsIdx_val_of_single rfl (ix2 p c) _).trans hk

/-- The first product, pooled rows [64, 128] by weights [128, 64]: its right operand is read at the contracted coordinate and the entry's column. -/
theorem dotHidden_rhsIdx (p : Fin 64) (c : Fin 64) (k : Fin 128) :
    dot_S64x128_S128x64_S64x64_1_0_0_1_n_n.rhsIdx (ix2 p c) ((contrEquiv1 dot_S64x128_S128x64_S64x64_1_0_0_1_n_n 128 rfl rfl).symm k) = ix2 k c := by
  have hk := contrEquiv1_symm_val dot_S64x128_S128x64_S64x64_1_0_0_1_n_n 128 rfl rfl k
  funext a
  refine Fin.ext ?_
  match a with
  | ⟨0, _⟩ => exact (dot_S64x128_S128x64_S64x64_1_0_0_1_n_n.rhsIdx_val_of_single rfl (ix2 p c) _).trans hk
  | ⟨1, _⟩ =>
    show (dot_S64x128_S128x64_S64x64_1_0_0_1_n_n.rhsIdx (ix2 p c) ((contrEquiv1 dot_S64x128_S128x64_S64x64_1_0_0_1_n_n 128 rfl rfl).symm k) 1).val = c.val
    unfold DotDims.rhsIdx
    rw [dif_neg (show ¬(1 : Fin S128x64.rank) ∈ dot_S64x128_S128x64_S64x64_1_0_0_1_n_n.rhsBatch by decide),
      dif_pos (show (1 : Fin S128x64.rank) ∈ dot_S64x128_S128x64_S64x64_1_0_0_1_n_n.rhsNonContracting by decide)]
    rfl

/-- The first product, pooled rows [64, 128] by weights [128, 64] into the zero accumulator, at entry `(p, c)`: the sum over the contracted axis of the left operand's row
    `p` times the right operand's column `c`. -/
theorem dotHidden_apply (l : FVec Ideal S64x128 .bf16) (r : FVec Ideal S128x64 .bf16) (p : Fin 64) (c : Fin 64) :
    matmul dot_S64x128_S128x64_S64x64_1_0_0_1_n_n none l r (constant (F := Ideal) S64x64 .f32 0x00000000#32) (ix2 p c)
      = ∑ k : Fin 128, l (ix2 p k) * r (ix2 k c) := by
  refine (Ideal.matmul_constant_zero_apply dot_S64x128_S128x64_S64x64_1_0_0_1_n_n none l r (ix2 p c)).trans ?_
  rw [← Equiv.sum_comp (contrEquiv1 dot_S64x128_S128x64_S64x64_1_0_0_1_n_n 128 rfl rfl).symm]
  refine Finset.sum_congr rfl fun k _ => ?_
  rw [dotHidden_lhsIdx, dotHidden_rhsIdx]

/-- The second product, hidden rows [64, 64] by weights [64, 2]: its left operand is read at the entry's row and the contracted coordinate. -/
theorem dotOut_lhsIdx (p : Fin 64) (c : Fin 2) (k : Fin 64) :
    dot_S64x64_S64x2_S64x2_1_0_0_1_n_n.lhsIdx (ix2 p c) ((contrEquiv1 dot_S64x64_S64x2_S64x2_1_0_0_1_n_n 64 rfl rfl).symm k) = ix2 p k := by
  have hk := contrEquiv1_symm_val dot_S64x64_S64x2_S64x2_1_0_0_1_n_n 64 rfl rfl k
  funext a
  refine Fin.ext ?_
  match a with
  | ⟨0, _⟩ =>
    show (dot_S64x64_S64x2_S64x2_1_0_0_1_n_n.lhsIdx (ix2 p c) ((contrEquiv1 dot_S64x64_S64x2_S64x2_1_0_0_1_n_n 64 rfl rfl).symm k) 0).val = p.val
    unfold DotDims.lhsIdx
    rw [dif_neg (show ¬(0 : Fin S64x64.rank) ∈ dot_S64x64_S64x2_S64x2_1_0_0_1_n_n.lhsBatch by decide),
      dif_pos (show (0 : Fin S64x64.rank) ∈ dot_S64x64_S64x2_S64x2_1_0_0_1_n_n.lhsNonContracting by decide)]
    rfl
  | ⟨1, _⟩ => exact (dot_S64x64_S64x2_S64x2_1_0_0_1_n_n.lhsIdx_val_of_single rfl (ix2 p c) _).trans hk

/-- The second product, hidden rows [64, 64] by weights [64, 2]: its right operand is read at the contracted coordinate and the entry's column. -/
theorem dotOut_rhsIdx (p : Fin 64) (c : Fin 2) (k : Fin 64) :
    dot_S64x64_S64x2_S64x2_1_0_0_1_n_n.rhsIdx (ix2 p c) ((contrEquiv1 dot_S64x64_S64x2_S64x2_1_0_0_1_n_n 64 rfl rfl).symm k) = ix2 k c := by
  have hk := contrEquiv1_symm_val dot_S64x64_S64x2_S64x2_1_0_0_1_n_n 64 rfl rfl k
  funext a
  refine Fin.ext ?_
  match a with
  | ⟨0, _⟩ => exact (dot_S64x64_S64x2_S64x2_1_0_0_1_n_n.rhsIdx_val_of_single rfl (ix2 p c) _).trans hk
  | ⟨1, _⟩ =>
    show (dot_S64x64_S64x2_S64x2_1_0_0_1_n_n.rhsIdx (ix2 p c) ((contrEquiv1 dot_S64x64_S64x2_S64x2_1_0_0_1_n_n 64 rfl rfl).symm k) 1).val = c.val
    unfold DotDims.rhsIdx
    rw [dif_neg (show ¬(1 : Fin S64x2.rank) ∈ dot_S64x64_S64x2_S64x2_1_0_0_1_n_n.rhsBatch by decide),
      dif_pos (show (1 : Fin S64x2.rank) ∈ dot_S64x64_S64x2_S64x2_1_0_0_1_n_n.rhsNonContracting by decide)]
    rfl

/-- The second product, hidden rows [64, 64] by weights [64, 2] into the zero accumulator, at entry `(p, c)`: the sum over the contracted axis of the left operand's row
    `p` times the right operand's column `c`. -/
theorem dotOut_apply (l : FVec Ideal S64x64 .bf16) (r : FVec Ideal S64x2 .bf16) (p : Fin 64) (c : Fin 2) :
    matmul dot_S64x64_S64x2_S64x2_1_0_0_1_n_n none l r (constant (F := Ideal) S64x2 .f32 0x00000000#32) (ix2 p c)
      = ∑ k : Fin 64, l (ix2 p k) * r (ix2 k c) := by
  refine (Ideal.matmul_constant_zero_apply dot_S64x64_S64x2_S64x2_1_0_0_1_n_n none l r (ix2 p c)).trans ?_
  rw [← Equiv.sum_comp (contrEquiv1 dot_S64x64_S64x2_S64x2_1_0_0_1_n_n 64 rfl rfl).symm]
  refine Finset.sum_congr rfl fun k _ => ?_
  rw [dotOut_lhsIdx, dotOut_rhsIdx]

/-- The head's body at entry `(p, q)`: the hidden row of pooled row `p` against column `q` of the second weights, plus
    the second bias at `q`. -/
theorem head_payload (v0 : Vec Ideal S64x128 .f32) (v3 : Vec Ideal S128x64 .f32) (v6 : Vec Ideal S1x64 .f32)
    (v13 : Vec Ideal S64x2 .f32) (v16 : Vec Ideal S1x2 .f32) (p : Fin 64) (q : Fin 2) :
    k4_pay1 (F := Ideal) v0 v3 v6 v13 v16 (ix2 p q)
      = Cert.Spec.headOut
          (fun j => Cert.Spec.headHidden (fun k => v0 (ix2 p k)) (fun k => v3 (ix2 k j)) (v6 (ix2 0 j)))
          (fun j => v13 (ix2 j q)) (v16 (ix2 0 q)) := by
  unfold k4_pay1
  simp only [shapeCast_self]
  rw [addf_apply, broadcastTo_1b_ab_apply, dotOut_apply]
  unfold Cert.Spec.headOut
  refine congrArg (· + v16 (ix2 0 q)) (Finset.sum_congr rfl fun j _ => ?_)
  rw [truncf_apply, truncf_apply, maximumf_apply, addf_apply, broadcast_apply, broadcastTo_1b_ab_apply,
    dotHidden_apply]
  rfl

end Cert.KernelIdeal.Body

end
-- ==== Proof.RLnmm.lean ====
/-
  The reference's two layer-norm + matrix-product stretches are the specification's `lnmm`.

  Each stretch takes a [100000, 128] array (the gathered node features for the first layer, the first layer's clipped
  output for the second), sums every row from a zero initial value and divides by 128, subtracts that mean, squares,
  sums and divides again, adds the small constant, takes the reciprocal square root, multiplies the deviations by it,
  scales and shifts per column, and contracts the result's columns against the rows of a [128, 128] weight matrix.
  Read entry by entry this is `Cert.Spec.lnmm` of the stretch's input, scale, shift and weights: the zero initial
  value adds nothing, the keep-dimension broadcasts read a row's statistic back at every column of the row, and the
  contraction is the sum over the 128 shared coordinates. The stretch's input itself stays opaque throughout.
-/
import proofs.«169815_j46626164965918_1_alg».proof.Proof.Spec
import proofs.«169815_j46626164965918_1_alg».proof.Proof.RefRead

noncomputable section

namespace Cert.ReferenceIdeal.Stage

open Cert.ReferenceIdeal Cert.ReferenceIdeal.Read Idealize.ShloMosaic Idealize.ShloMosaic.ValueIdx

/-- Two rank-2 indices with the same coordinates are equal. -/
local macro "idx_ext" : tactic =>
  `(tactic| (funext a; refine Fin.ext ?_; match a with | ⟨0, _⟩ => rfl | ⟨1, _⟩ => rfl))
/-- Two rank-1 indices with the same coordinate are equal. -/
local macro "idx_ext1" : tactic =>
  `(tactic| (funext a; refine Fin.ext ?_; match a with | ⟨0, _⟩ => rfl))

/-! ## Layer 1 -/

/-- The row mean of layer 1's input: a host sum from a zero initial value over the 128 columns, divided by 128. -/
theorem mean1 (x0 : (⟨S100000, .i32⟩ : BufTy).Contents (Elt Ideal)) (x4 : (⟨S30000x128, .f32⟩ : BufTy).Contents (Elt Ideal)) (p : Fin 100000) (u : Fin 1) :
    val_main_v17 (F := Ideal) x0 x4 (ix2 p u) = Cert.Spec.rowMean (fun k => val_main_v13 (F := Ideal) x0 x4 (ix2 p k)) := by
  have e : ∀ k : Fin 128, idx_main_v14 (idx_main_v15 (ix2 p u)) k = ix2 p k := fun k => by idx_ext
  rw [val_main_v17_apply, val_main_v15_apply, val_main_v14_apply, val_main_v16_apply, val_main_cst_3_apply, val_main_cst_2_apply]
  simp only [Ideal.hostDivf_def, Ideal.ofBits_def, Ideal.ofBits_zero_f32, zero_add, e]
  generalize val_main_v13 (F := Ideal) x0 x4 = y
  rfl

/-- The row variance of layer 1's input: the deviations from the mean squared, summed from zero, divided by 128. -/
theorem var1 (x0 : (⟨S100000, .i32⟩ : BufTy).Contents (Elt Ideal)) (x4 : (⟨S30000x128, .f32⟩ : BufTy).Contents (Elt Ideal)) (p : Fin 100000) (u : Fin 1) :
    val_main_v24 (F := Ideal) x0 x4 (ix2 p u) = Cert.Spec.rowVar (fun k => val_main_v13 (F := Ideal) x0 x4 (ix2 p k)) := by
  have e : ∀ k : Fin 128, idx_main_v21 (idx_main_v22 (ix2 p u)) k = ix2 p k := fun k => by idx_ext
  have ec : ∀ k : Fin 128, idx_main_v18 (ix2 p k) = ix2 p (0 : Fin 1) := fun k => by idx_ext
  rw [val_main_v24_apply, val_main_v22_apply, val_main_v21_apply, val_main_v23_apply, val_main_cst_5_apply, val_main_cst_4_apply]
  have hs : (∑ k : Fin 128, val_main_v20 (F := Ideal) x0 x4 (idx_main_v21 (idx_main_v22 (ix2 p u)) k))
      = ∑ k : Fin 128, (val_main_v13 (F := Ideal) x0 x4 (ix2 p k) - Cert.Spec.rowMean (fun k' => val_main_v13 (F := Ideal) x0 x4 (ix2 p k')))
          * (val_main_v13 (F := Ideal) x0 x4 (ix2 p k) - Cert.Spec.rowMean (fun k' => val_main_v13 (F := Ideal) x0 x4 (ix2 p k'))) :=
    Finset.sum_congr rfl fun k _ => by
      rw [e k, val_main_v20_apply, val_main_v19_apply, val_main_v18_apply, ec k, mean1]
      simp only [Ideal.mulf_def, Ideal.subf_def]
  rw [hs]
  simp only [Ideal.hostDivf_def, Ideal.ofBits_def, Ideal.ofBits_zero_f32, zero_add]
  generalize val_main_v13 (F := Ideal) x0 x4 = y
  rfl

/-- One entry of layer 1's normalised, scaled and shifted rows. -/
theorem ln1 (x0 : (⟨S100000, .i32⟩ : BufTy).Contents (Elt Ideal)) (x4 : (⟨S30000x128, .f32⟩ : BufTy).Contents (Elt Ideal)) (x5 x6 : (⟨S128, .f32⟩ : BufTy).Contents (Elt Ideal)) (p : Fin 100000) (q : Fin 128) :
    val_main_v37 (F := Ideal) x0 x4 x5 x6 (ix2 p q)
      = Cert.Spec.lnElt (fun k => val_main_v13 (F := Ideal) x0 x4 (ix2 p k)) (fun k => x5 (ix1 k)) (fun k => x6 (ix1 k)) q := by
  have es : idx_main_v32 (idx_main_v33 (ix2 p q)) = ix1 q := by idx_ext1
  have eb : idx_main_v35 (idx_main_v36 (ix2 p q)) = ix1 q := by idx_ext1
  have em : idx_main_v25 (ix2 p q) = ix2 p (0 : Fin 1) := by idx_ext
  have er : idx_main_v30 (ix2 p q) = ix2 p (0 : Fin 1) := by idx_ext
  rw [val_main_v37_apply, val_main_v36_apply, val_main_v35_apply, val_main_v34_apply, val_main_v33_apply, val_main_v32_apply, val_main_v31_apply,
    val_main_v30_apply, er, val_main_v29_apply, val_main_v28_apply, val_main_v27_apply, val_main_cst_6_apply, val_main_v26_apply, val_main_v25_apply, em,
    var1, mean1, es, eb]
  simp only [Ideal.addf_def, Ideal.mulf_def, Ideal.subf_def, Ideal.hostUnary_rsqrt_def, Ideal.ofBits_def]
  generalize val_main_v13 (F := Ideal) x0 x4 = y
  rfl

/-- Layer 1's layer-norm and product stretch is the specification's `lnmm` of the layer's input. -/
theorem lnmm1 (x0 : (⟨S100000, .i32⟩ : BufTy).Contents (Elt Ideal)) (x4 : (⟨S30000x128, .f32⟩ : BufTy).Contents (Elt Ideal)) (x5 x6 : (⟨S128, .f32⟩ : BufTy).Contents (Elt Ideal)) (x7 : (⟨S128x128, .f32⟩ : BufTy).Contents (Elt Ideal)) :
    val_main_v38 (F := Ideal) x0 x4 x5 x6 x7 = Cert.Spec.lnmm (val_main_v13 (F := Ideal) x0 x4) x5 x6 x7 := by
  funext i
  obtain ⟨p, q, rfl⟩ : ∃ (p : Fin 100000) (q : Fin 128), i = ix2 p q := ⟨i 0, i 1, eq_ix2 i⟩
  rw [val_main_v38_apply]
  unfold Cert.Spec.lnmm Cert.Spec.lnmmElt
  refine Finset.sum_congr rfl fun k _ => ?_
  have el : lidx_main_v38 (ix2 p q) k = ix2 p k := by idx_ext
  have er : ridx_main_v38 (ix2 p q) k = ix2 k q := by idx_ext
  rw [el, er, ln1]

/-! ## Layer 2 -/

/-- The row mean of layer 2's input: a host sum from a zero initial value over the 128 columns, divided by 128. -/
theorem mean2 (x0 : (⟨S100000, .i32⟩ : BufTy).Contents (Elt Ideal)) (x1 : (⟨S2x600000, .i32⟩ : BufTy).Contents (Elt Ideal)) (x2 : (⟨S600000, .f32⟩ : BufTy).Contents (Elt Ideal)) (x4 : (⟨S30000x128, .f32⟩ : BufTy).Contents (Elt Ideal)) (x5 x6 : (⟨S128, .f32⟩ : BufTy).Contents (Elt Ideal)) (x7 : (⟨S128x128, .f32⟩ : BufTy).Contents (Elt Ideal)) (x8 : (⟨S128, .f32⟩ : BufTy).Contents (Elt Ideal)) (p : Fin 100000) (u : Fin 1) :
    val_main_v86 (F := Ideal) x0 x1 x2 x4 x5 x6 x7 x8 (ix2 p u) = Cert.Spec.rowMean (fun k => val_main_v82 (F := Ideal) x0 x1 x2 x4 x5 x6 x7 x8 (ix2 p k)) := by
  have e : ∀ k : Fin 128, idx_main_v83 (idx_main_v84 (ix2 p u)) k = ix2 p k := fun k => by idx_ext
  rw [val_main_v86_apply, val_main_v84_apply, val_main_v83_apply, val_main_v85_apply, val_main_cst_17_apply, val_main_cst_16_apply]
  simp only [Ideal.hostDivf_def, Ideal.ofBits_def, Ideal.ofBits_zero_f32, zero_add, e]
  generalize val_main_v82 (F := Ideal) x0 x1 x2 x4 x5 x6 x7 x8 = y
  rfl

/-- The row variance of layer 2's input: the deviations from the mean squared, summed from zero, divided by 128. -/
theorem var2 (x0 : (⟨S100000, .i32⟩ : BufTy).Contents (Elt Ideal)) (x1 : (⟨S2x600000, .i32⟩ : BufTy).Contents (Elt Ideal)) (x2 : (⟨S600000, .f32⟩ : BufTy).Contents (Elt Ideal)) (x4 : (⟨S30000x128, .f32⟩ : BufTy).Contents (Elt Ideal)) (x5 x6 : (⟨S128, .f32⟩ : BufTy).Contents (Elt Ideal)) (x7 : (⟨S128x128, .f32⟩ : BufTy).Contents (Elt Ideal)) (x8 : (⟨S128, .f32⟩ : BufTy).Contents (Elt Ideal)) (p : Fin 100000) (u : Fin 1) :
    val_main_v93 (F := Ideal) x0 x1 x2 x4 x5 x6 x7 x8 (ix2 p u) = Cert.Spec.rowVar (fun k => val_main_v82 (F := Ideal) x0 x1 x2 x4 x5 x6 x7 x8 (ix2 p k)) := by
  have e : ∀ k : Fin 128, idx_main_v90 (idx_main_v91 (ix2 p u)) k = ix2 p k := fun k => by idx_ext
  have ec : ∀ k : Fin 128, idx_main_v87 (ix2 p k) = ix2 p (0 : Fin 1) := fun k => by idx_ext
  rw [val_main_v93_apply, val_main_v91_apply, val_main_v90_apply, val_main_v92_apply, val_main_cst_19_apply, val_main_cst_18_apply]
  have hs : (∑ k : Fin 128, val_main_v89 (F := Ideal) x0 x1 x2 x4 x5 x6 x7 x8 (idx_main_v90 (idx_main_v91 (ix2 p u)) k))
      = ∑ k : Fin 128, (val_main_v82 (F := Ideal) x0 x1 x2 x4 x5 x6 x7 x8 (ix2 p k) - Cert.Spec.rowMean (fun k' => val_main_v82 (F := Ideal) x0 x1 x2 x4 x5 x6 x7 x8 (ix2 p k')))
          * (val_main_v82 (F := Ideal) x0 x1 x2 x4 x5 x6 x7 x8 (ix2 p k) - Cert.Spec.rowMean (fun k' => val_main_v82 (F := Ideal) x0 x1 x2 x4 x5 x6 x7 x8 (ix2 p k'))) :=
    Finset.sum_congr rfl fun k _ => by
      rw [e k, val_main_v89_apply, val_main_v88_apply, val_main_v87_apply, ec k, mean2]
      simp only [Ideal.mulf_def, Ideal.subf_def]
  rw [hs]
  simp only [Ideal.hostDivf_def, Ideal.ofBits_def, Ideal.ofBits_zero_f32, zero_add]
  generalize val_main_v82 (F := Ideal) x0 x1 x2 x4 x5 x6 x7 x8 = y
  rfl

/-- One entry of layer 2's normalised, scaled and shifted rows. -/
theorem ln2 (x0 : (⟨S100000, .i32⟩ : BufTy).Contents (Elt Ideal)) (x1 : (⟨S2x600000, .i32⟩ : BufTy).Contents (Elt Ideal)) (x2 : (⟨S600000, .f32⟩ : BufTy).Contents (Elt Ideal)) (x4 : (⟨S30000x128, .f32⟩ : BufTy).Contents (Elt Ideal)) (x5 x6 : (⟨S128, .f32⟩ : BufTy).Contents (Elt Ideal)) (x7 : (⟨S128x128, .f32⟩ : BufTy).Contents (Elt Ideal)) (x8 : (⟨S128, .f32⟩ : BufTy).Contents (Elt Ideal)) (x9 x10 : (⟨S128, .f32⟩ : BufTy).Contents (Elt Ideal)) (p : Fin 100000) (q : Fin 128) :
    val_main_v106 (F := Ideal) x0 x1 x2 x4 x5 x6 x7 x8 x9 x10 (ix2 p q)
      = Cert.Spec.lnElt (fun k => val_main_v82 (F := Ideal) x0 x1 x2 x4 x5 x6 x7 x8 (ix2 p k)) (fun k => x9 (ix1 k)) (fun k => x10 (ix1 k)) q := by
  have es : idx_main_v101 (idx_main_v102 (ix2 p q)) = ix1 q := by idx_ext1
  have eb : idx_main_v104 (idx_main_v105 (ix2 p q)) = ix1 q := by idx_ext1
  have em : idx_main_v94 (ix2 p q) = ix2 p (0 : Fin 1) := by idx_ext
  have er : idx_main_v99 (ix2 p q) = ix2 p (0 : Fin 1) := by idx_ext
  rw [val_main_v106_apply, val_main_v105_apply, val_main_v104_apply, val_main_v103_apply, val_main_v102_apply, val_main_v101_apply, val_main_v100_apply,
    val_main_v99_apply, er, val_main_v98_apply, val_main_v97_apply, val_main_v96_apply, val_main_cst_20_apply, val_main_v95_apply, val_main_v94_apply, em,
    var2, mean2, es, eb]
  simp only [Ideal.addf_def, Ideal.mulf_def, Ideal.subf_def, Ideal.hostUnary_rsqrt_def, Ideal.ofBits_def]
  generalize val_main_v82 (F := Ideal) x0 x1 x2 x4 x5 x6 x7 x8 = y
  rfl

/-- Layer 2's layer-norm and product stretch is the specification's `lnmm` of the layer's input. -/
theorem lnmm2 (x0 : (⟨S100000, .i32⟩ : BufTy).Contents (Elt Ideal)) (x1 : (⟨S2x600000, .i32⟩ : BufTy).Contents (Elt Ideal)) (x2 : (⟨S600000, .f32⟩ : BufTy).Contents (Elt Ideal)) (x4 : (⟨S30000x128, .f32⟩ : BufTy).Contents (Elt Ideal)) (x5 x6 : (⟨S128, .f32⟩ : BufTy).Contents (Elt Ideal)) (x7 : (⟨S128x128, .f32⟩ : BufTy).Contents (Elt Ideal)) (x8 : (⟨S128, .f32⟩ : BufTy).Contents (Elt Ideal)) (x9 x10 : (⟨S128, .f32⟩ : BufTy).Contents (Elt Ideal)) (x11 : (⟨S128x128, .f32⟩ : BufTy).Contents (Elt Ideal)) :
    val_main_v107 (F := Ideal) x0 x1 x2 x4 x5 x6 x7 x8 x9 x10 x11 = Cert.Spec.lnmm (val_main_v82 (F := Ideal) x0 x1 x2 x4 x5 x6 x7 x8) x9 x10 x11 := by
  funext i
  obtain ⟨p, q, rfl⟩ : ∃ (p : Fin 100000) (q : Fin 128), i = ix2 p q := ⟨i 0, i 1, eq_ix2 i⟩
  rw [val_main_v107_apply]
  unfold Cert.Spec.lnmm Cert.Spec.lnmmElt
  refine Finset.sum_congr rfl fun k _ => ?_
  have el : lidx_main_v107 (ix2 p q) k = ix2 p k := by idx_ext
  have er : ridx_main_v107 (ix2 p q) k = ix2 k q := by idx_ext
  rw [el, er, ln2]

end Cert.ReferenceIdeal.Stage

end
-- ==== Proof.RComb.lean ====
/-
  The reference's two combine steps are the specification's `comb`.

  Each stretch broadcasts the self-loop scale (a column) along the rows, multiplies the node's own entry by it, adds the
  gathered messages on the left, adds the bias (a row, broadcast down the columns), and clips at zero by a maximum with
  the zero splat on the right. Read at an entry, the two broadcasts pick the column's entry of that row and the bias's
  entry of that column; what is left is the same grouping, (messages + own × scale) + bias, and the same order inside the
  maximum as `combElt`. The three arrays coming in (messages, own entries, scale) are kept as they are: nothing here
  depends on how they were computed.
-/
import proofs.«169815_j46626164965918_1_alg».proof.Proof.Spec
import proofs.«169815_j46626164965918_1_alg».proof.Proof.RefRead

noncomputable section

namespace Cert.ReferenceIdeal.Stage

open Cert.ReferenceIdeal Cert.ReferenceIdeal.Read Idealize.ShloMosaic Idealize.ShloMosaic.ValueIdx

/-- Layer one: messages `%73`, own entries `%38`, scale column `%75`, bias `%arg8`. -/
theorem comb1 (x0 : (⟨S100000, .i32⟩ : BufTy).Contents (Elt Ideal)) (x1 : (⟨S2x600000, .i32⟩ : BufTy).Contents (Elt Ideal)) (x2 : (⟨S600000, .f32⟩ : BufTy).Contents (Elt Ideal))
    (x4 : (⟨S30000x128, .f32⟩ : BufTy).Contents (Elt Ideal)) (x5 x6 : (⟨S128, .f32⟩ : BufTy).Contents (Elt Ideal)) (x7 : (⟨S128x128, .f32⟩ : BufTy).Contents (Elt Ideal))
    (x8 : (⟨S128, .f32⟩ : BufTy).Contents (Elt Ideal)) :
    val_main_v82 (F := Ideal) x0 x1 x2 x4 x5 x6 x7 x8
      = Cert.Spec.comb (val_main_v73 (F := Ideal) x0 x1 x2 x4 x5 x6 x7) (val_main_v38 (F := Ideal) x0 x4 x5 x6 x7)
          (val_main_v75 (F := Ideal) x1 x2) x8 := by
  refine funext fun (i : S100000x128.Idx) => ?_
  obtain ⟨p, q, rfl⟩ : ∃ (p : Fin 100000) (q : Fin 128), i = ix2 p q := ⟨i 0, i 1, eq_ix2 i⟩
  have ecol : idx_main_v76 (ix2 p q) = ix2 p (0 : Fin 1) :=
    funext fun a => Fin.ext (by match a with | ⟨0, _⟩ => rfl | ⟨1, _⟩ => rfl)
  have erow : idx_main_v79 (idx_main_v80 (ix2 p q)) = ix1 q :=
    funext fun a => Fin.ext (by match a with | ⟨0, _⟩ => rfl)
  rw [val_main_v82_apply, val_main_v81_apply, val_main_v78_apply, val_main_v77_apply, val_main_v76_apply,
    val_main_v80_apply, val_main_v79_apply, val_main_call0_v0_apply, val_main_call0_cst_apply, ecol, erow]
  rfl

/-- Layer two: messages `%142`, own entries `%107`, scale column `%144`, bias `%arg12`. -/
theorem comb2 (x0 : (⟨S100000, .i32⟩ : BufTy).Contents (Elt Ideal)) (x1 : (⟨S2x600000, .i32⟩ : BufTy).Contents (Elt Ideal)) (x2 : (⟨S600000, .f32⟩ : BufTy).Contents (Elt Ideal))
    (x4 : (⟨S30000x128, .f32⟩ : BufTy).Contents (Elt Ideal)) (x5 x6 : (⟨S128, .f32⟩ : BufTy).Contents (Elt Ideal)) (x7 : (⟨S128x128, .f32⟩ : BufTy).Contents (Elt Ideal))
    (x8 x9 x10 : (⟨S128, .f32⟩ : BufTy).Contents (Elt Ideal)) (x11 : (⟨S128x128, .f32⟩ : BufTy).Contents (Elt Ideal)) (x12 : (⟨S128, .f32⟩ : BufTy).Contents (Elt Ideal)) :
    val_main_v151 (F := Ideal) x0 x1 x2 x4 x5 x6 x7 x8 x9 x10 x11 x12
      = Cert.Spec.comb (val_main_v142 (F := Ideal) x0 x1 x2 x4 x5 x6 x7 x8 x9 x10 x11)
          (val_main_v107 (F := Ideal) x0 x1 x2 x4 x5 x6 x7 x8 x9 x10 x11) (val_main_v144 (F := Ideal) x1 x2) x12 := by
  refine funext fun (i : S100000x128.Idx) => ?_
  obtain ⟨p, q, rfl⟩ : ∃ (p : Fin 100000) (q : Fin 128), i = ix2 p q := ⟨i 0, i 1, eq_ix2 i⟩
  have ecol : idx_main_v145 (ix2 p q) = ix2 p (0 : Fin 1) :=
    funext fun a => Fin.ext (by match a with | ⟨0, _⟩ => rfl | ⟨1, _⟩ => rfl)
  have erow : idx_main_v148 (idx_main_v149 (ix2 p q)) = ix1 q :=
    funext fun a => Fin.ext (by match a with | ⟨0, _⟩ => rfl)
  rw [val_main_v151_apply, val_main_v150_apply, val_main_v147_apply, val_main_v146_apply, val_main_v145_apply,
    val_main_v149_apply, val_main_v148_apply, val_main_call1_v0_apply, val_main_call1_cst_apply, ecol, erow]
  rfl

end Cert.ReferenceIdeal.Stage

end
-- ==== Proof.RHead.lean ====
/-
  The reference's head is the specification's `head`.

  The pooled rows are multiplied by the first weights (a sum over the 128 pooled coordinates), the first bias is added
  along the columns and the result clipped at zero; that hidden array is multiplied by the second weights (a sum over
  the 64 hidden coordinates) and the second bias added. Read at an entry, each product is the sum over its contracted
  axis of a row entry times a column entry, and each bias broadcast picks the entry of that column, so the entry is
  `headOut` of the `headHidden`s, with the same order inside the maximum. The pooled array coming in is kept as it is.
-/
import proofs.«169815_j46626164965918_1_alg».proof.Proof.Spec
import proofs.«169815_j46626164965918_1_alg».proof.Proof.RefRead

noncomputable section

namespace Cert.ReferenceIdeal.Stage

open Cert.ReferenceIdeal Cert.ReferenceIdeal.Read Idealize.ShloMosaic Idealize.ShloMosaic.ValueIdx

/-- The hidden stage at entry `(p, j)`: the pooled row `p` against column `j` of the first weights, plus the first bias
    at `j`, clipped at zero. -/
theorem hidden
    (x0 : (⟨S100000, .i32⟩ : BufTy).Contents (Elt Ideal)) (x1 : (⟨S2x600000, .i32⟩ : BufTy).Contents (Elt Ideal))
    (x2 : (⟨S600000, .f32⟩ : BufTy).Contents (Elt Ideal)) (x3 : (⟨S100000, .i32⟩ : BufTy).Contents (Elt Ideal))
    (x4 : (⟨S30000x128, .f32⟩ : BufTy).Contents (Elt Ideal)) (x5 x6 : (⟨S128, .f32⟩ : BufTy).Contents (Elt Ideal))
    (x7 : (⟨S128x128, .f32⟩ : BufTy).Contents (Elt Ideal)) (x8 x9 x10 : (⟨S128, .f32⟩ : BufTy).Contents (Elt Ideal))
    (x11 : (⟨S128x128, .f32⟩ : BufTy).Contents (Elt Ideal)) (x12 : (⟨S128, .f32⟩ : BufTy).Contents (Elt Ideal))
    (x13 : (⟨S128x64, .f32⟩ : BufTy).Contents (Elt Ideal)) (x14 : (⟨S64, .f32⟩ : BufTy).Contents (Elt Ideal))
    (p j : Fin 64) :
    val_main_v168 (F := Ideal) x0 x1 x2 x3 x4 x5 x6 x7 x8 x9 x10 x11 x12 x13 x14 (ix2 p j)
      = Cert.Spec.headHidden (fun k => val_main_v163 (F := Ideal) x0 x1 x2 x3 x4 x5 x6 x7 x8 x9 x10 x11 x12 (ix2 p k))
          (fun k => x13 (ix2 k j)) (x14 (ix1 j)) := by
  have eb : idx_main_v165 (idx_main_v166 (ix2 p j)) = ix1 j :=
    funext fun a => Fin.ext (by match a with | ⟨0, _⟩ => rfl)
  have el : ∀ k : Fin 128, lidx_main_v164 (ix2 p j) k = ix2 p k := fun k =>
    funext fun a => Fin.ext (by match a with | ⟨0, _⟩ => rfl | ⟨1, _⟩ => rfl)
  have er : ∀ k : Fin 128, ridx_main_v164 (ix2 p j) k = ix2 k j := fun k =>
    funext fun a => Fin.ext (by match a with | ⟨0, _⟩ => rfl | ⟨1, _⟩ => rfl)
  rw [val_main_v168_apply, val_main_v167_apply, val_main_v164_apply, val_main_v166_apply, val_main_v165_apply,
    val_main_call2_v0_apply, val_main_call2_cst_apply, eb]
  generalize val_main_v163 (F := Ideal) x0 x1 x2 x3 x4 x5 x6 x7 x8 x9 x10 x11 x12 = g
  have hs : (∑ k : Fin 128, g (lidx_main_v164 (ix2 p j) k) * x13 (ridx_main_v164 (ix2 p j) k))
      = ∑ k : Fin 128, g (ix2 p k) * x13 (ix2 k j) :=
    Finset.sum_congr rfl fun k _ => by rw [el k, er k]
  rw [hs]
  rfl

/-- The head's output is `head` of the pooled rows `%163` and the four head parameters. -/
theorem head
    (x0 : (⟨S100000, .i32⟩ : BufTy).Contents (Elt Ideal)) (x1 : (⟨S2x600000, .i32⟩ : BufTy).Contents (Elt Ideal))
    (x2 : (⟨S600000, .f32⟩ : BufTy).Contents (Elt Ideal)) (x3 : (⟨S100000, .i32⟩ : BufTy).Contents (Elt Ideal))
    (x4 : (⟨S30000x128, .f32⟩ : BufTy).Contents (Elt Ideal)) (x5 x6 : (⟨S128, .f32⟩ : BufTy).Contents (Elt Ideal))
    (x7 : (⟨S128x128, .f32⟩ : BufTy).Contents (Elt Ideal)) (x8 x9 x10 : (⟨S128, .f32⟩ : BufTy).Contents (Elt Ideal))
    (x11 : (⟨S128x128, .f32⟩ : BufTy).Contents (Elt Ideal)) (x12 : (⟨S128, .f32⟩ : BufTy).Contents (Elt Ideal))
    (x13 : (⟨S128x64, .f32⟩ : BufTy).Contents (Elt Ideal)) (x14 : (⟨S64, .f32⟩ : BufTy).Contents (Elt Ideal))
    (x15 : (⟨S64x2, .f32⟩ : BufTy).Contents (Elt Ideal)) (x16 : (⟨S2, .f32⟩ : BufTy).Contents (Elt Ideal)) :
    val_main_v172 (F := Ideal) x0 x1 x2 x3 x4 x5 x6 x7 x8 x9 x10 x11 x12 x13 x14 x15 x16
      = Cert.Spec.head (val_main_v163 (F := Ideal) x0 x1 x2 x3 x4 x5 x6 x7 x8 x9 x10 x11 x12) x13 x14 x15 x16 := by
  refine funext fun (i : S64x2.Idx) => ?_
  obtain ⟨p, q, rfl⟩ : ∃ (p : Fin 64) (q : Fin 2), i = ix2 p q := ⟨i 0, i 1, eq_ix2 i⟩
  have eb : idx_main_v170 (idx_main_v171 (ix2 p q)) = ix1 q :=
    funext fun a => Fin.ext (by match a with | ⟨0, _⟩ => rfl)
  have el : ∀ k : Fin 64, lidx_main_v169 (ix2 p q) k = ix2 p k := fun k =>
    funext fun a => Fin.ext (by match a with | ⟨0, _⟩ => rfl | ⟨1, _⟩ => rfl)
  have er : ∀ k : Fin 64, ridx_main_v169 (ix2 p q) k = ix2 k q := fun k =>
    funext fun a => Fin.ext (by match a with | ⟨0, _⟩ => rfl | ⟨1, _⟩ => rfl)
  rw [val_main_v172_apply, val_main_v169_apply, val_main_v171_apply, val_main_v170_apply, eb]
  have hs : (∑ k : Fin 64, val_main_v168 (F := Ideal) x0 x1 x2 x3 x4 x5 x6 x7 x8 x9 x10 x11 x12 x13 x14 (lidx_main_v169 (ix2 p q) k)
        * x15 (ridx_main_v169 (ix2 p q) k))
      = ∑ k : Fin 64, Cert.Spec.headHidden (fun k' => val_main_v163 (F := Ideal) x0 x1 x2 x3 x4 x5 x6 x7 x8 x9 x10 x11 x12 (ix2 p k'))
          (fun k' => x13 (ix2 k' k)) (x14 (ix1 k)) * x15 (ix2 k q) :=
    Finset.sum_congr rfl fun k _ => by rw [el k, er k, hidden]
  rw [hs]
  generalize val_main_v163 (F := Ideal) x0 x1 x2 x3 x4 x5 x6 x7 x8 x9 x10 x11 x12 = g
  rfl

end Cert.ReferenceIdeal.Stage

end
-- ==== Proof.lean ====
/-
  The certificate's five claims.

  The kernel is a two-layer graph-convolution network with a two-stage head, five kernel regions among host
  operations; the reference is the same network in plain array operations. At the ideal instance a float is an
  extended real and every operation exact, so the two programs compute the same function entry by entry: the
  kernel's lane sums and matrix products into a zero accumulator, and the reference's host sums from a zero initial
  value and its contractions, are the same finite sums; the remaining operations — the embedding gather, the edge
  normalisation, the gather–scale–scatter of the messages, the pooling — are literally the same on both sides.

  The three frames are the generated ones (the reference's is its generated run with the result dropped). No
  operation was rewritten when the kernel was idealized, so there is nothing to preserve. For the last claim the
  common result is the reference's final stage read at the KERNEL's arguments: the kernel's run ends there
  (the fold through its regions, module by module), and the reference's run ends at the same stage of its own
  arguments, which agree with the kernel's.
-/
import proofs.«169815_j46626164965918_1_alg».proof.Defs
import proofs.«169815_j46626164965918_1_alg».proof.Proof.Gen.Kernel
import proofs.«169815_j46626164965918_1_alg».proof.Proof.Gen.Kernel.Skeleton
import proofs.«169815_j46626164965918_1_alg».proof.Proof.Gen.Kernel.Launch
import proofs.«169815_j46626164965918_1_alg».proof.Proof.Gen.Kernel.Points
import proofs.«169815_j46626164965918_1_alg».proof.Proof.Gen.Kernel.Frame
import proofs.«169815_j46626164965918_1_alg».proof.Proof.Gen.KernelIdeal
import proofs.«169815_j46626164965918_1_alg».proof.Proof.Gen.KernelIdeal.Skeleton
import proofs.«169815_j46626164965918_1_alg».proof.Proof.Gen.KernelIdeal.Launch
import proofs.«169815_j46626164965918_1_alg».proof.Proof.Gen.KernelIdeal.Points
import proofs.«169815_j46626164965918_1_alg».proof.Proof.Gen.KernelIdeal.Frame
import proofs.«169815_j46626164965918_1_alg».proof.Proof.Gen.ReferenceIdeal
import proofs.«169815_j46626164965918_1_alg».proof.Proof.Gen.ReferenceIdeal.Run
import proofs.«169815_j46626164965918_1_alg».proof.Proof.Gen.ReferenceIdeal.Read
import proofs.«169815_j46626164965918_1_alg».proof.Proof.Gen.Pre_finite_inputs
import proofs.«169815_j46626164965918_1_alg».proof.Proof.KRun
import proofs.«169815_j46626164965918_1_alg».proof.Proof.KValue
import proofs.«169815_j46626164965918_1_alg».proof.Proof.KLnmm
import proofs.«169815_j46626164965918_1_alg».proof.Proof.KComb
import proofs.«169815_j46626164965918_1_alg».proof.Proof.KHead
import proofs.«169815_j46626164965918_1_alg».proof.Proof.RLnmm
import proofs.«169815_j46626164965918_1_alg».proof.Proof.RComb
import proofs.«169815_j46626164965918_1_alg».proof.Proof.RHead
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ
/-- So does the idealized kernel. -/
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The idealized kernel's run ends with the result buffer at the reference's last stage of the kernel's arguments,
    and the arguments as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v88)
          = Cert.ReferenceIdeal.Read.val_main_v172 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)) :=
  (θ_run Cert.KernelIdeal.defs _ _).mono
    (fun r h c => ⟨(h c).1.trans (Cert.KernelIdeal.Result.result_eq m ρ c
        Cert.KernelIdeal.Body.lnmm_payload0 Cert.KernelIdeal.Body.comb_payload1 Cert.KernelIdeal.Body.lnmm_payload2
        Cert.KernelIdeal.Body.comb_payload3 Cert.KernelIdeal.Body.head_payload
        Cert.ReferenceIdeal.Stage.lnmm1 Cert.ReferenceIdeal.Stage.comb1 Cert.ReferenceIdeal.Stage.lnmm2
        Cert.ReferenceIdeal.Stage.comb2 Cert.ReferenceIdeal.Stage.head), (h c).2⟩)
    (Cert.KernelIdeal.RunValue.run_result m ρ)

/-- From memories agreeing on the arguments the two idealized programs end with equal results: the kernel's run
    ends at the reference's last stage of the kernel's arguments, the reference's at the same stage of its own. -/
theorem algebraic : Cert.algebraic_KernelIdeal_ReferenceIdeal := by
  intro m ρ m' ρ' _ hagree
  refine ⟨_, kernel_run m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v172_eq]
  obtain ⟨e0, e1, e2, e3, e4, e5, e6, e7, e8, e9, e10, e11, e12, e13, e14, e15, e16⟩ := hagree c
  rw [e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
